-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x22743x4 : Shape := ⟨3, ![32, 22743, 4]⟩
abbrev S32x50x4 : Shape := ⟨3, ![32, 50, 4]⟩
abbrev S_ : Shape := ⟨0, ![]⟩

class Facts : Prop where
  bcast_S_S32x22743x4 : S_.BroadcastsInDim S32x22743x4 (![] : Fin 0 → Fin S32x22743x4.rank)
  reducesTo_S32x22743x4_S_d0_1_2 : S32x22743x4.ReducesTo [0, 1, 2] S_
  h_S_ : 0 < S_.numel
  bcast_S_S32x50x4 : S_.BroadcastsInDim S32x50x4 (![] : Fin 0 → Fin S32x50x4.rank)
  reducesTo_S32x50x4_S_d0_1_2 : S32x50x4.ReducesTo [0, 1, 2] S_

variable [Facts]

def fn {F : FTy → Type} [FloatOps F] (main_arg0 : FVec F S32x22743x4 .f32) (main_arg1 : FVec F S32x50x4 .f32) : IVec S_ 1 :=
  let main_v0 : FVec F S32x22743x4 .f32 := Host.absf main_arg0
  let main_cst : FVec F S_ .f32 := constant S_ .f32 0x7F800000#32
  let main_v1 : FVec F S32x22743x4 .f32 := broadcastInDim S32x22743x4 ![] bcast_S_S32x22743x4 main_cst
  let main_v2 : IVec S32x22743x4 1 := cmpf .olt main_v0 main_v1
  let main_c : IVec S_ 1 := constantI S_ 1 1#1
  let main_v3 : IVec S_ 1 := (fun x v => Host.reduce IntOp.andi x v reducesTo_S32x22743x4_S_d0_1_2 h_S_) main_v2 main_c
  let main_v4 : FVec F S32x50x4 .f32 := Host.absf main_arg1
  let main_cst_0 : FVec F S_ .f32 := constant S_ .f32 0x7F800000#32
  let main_v5 : FVec F S32x50x4 .f32 := broadcastInDim S32x50x4 ![] bcast_S_S32x50x4 main_cst_0
  let main_v6 : IVec S32x50x4 1 := cmpf .olt main_v4 main_v5
  let main_c_1 : IVec S_ 1 := constantI S_ 1 1#1
  let main_v7 : IVec S_ 1 := (fun x v => Host.reduce IntOp.andi x v reducesTo_S32x50x4_S_d0_1_2 h_S_) main_v6 main_c_1
  let main_v8 : IVec S_ 1 := andi main_v3 main_v7
  main_v8
-- ==== Kernel.lean ====
abbrev S32x22743x4 : Shape := ⟨3, ![32, 22743, 4]⟩
abbrev S32x50x4 : Shape := ⟨3, ![32, 50, 4]⟩
abbrev S_ : Shape := ⟨0, ![]⟩
abbrev S32x24576x4 : Shape := ⟨3, ![32, 24576, 4]⟩
abbrev S32x4x24576 : Shape := ⟨3, ![32, 4, 24576]⟩
abbrev S32x1x24576 : Shape := ⟨3, ![32, 1, 24576]⟩
abbrev S1x4x24576 : Shape := ⟨3, ![1, 4, 24576]⟩
abbrev S1x50x4 : Shape := ⟨3, ![1, 50, 4]⟩
abbrev S1x1x24576 : Shape := ⟨3, ![1, 1, 24576]⟩
abbrev S1x1x2048 : Shape := ⟨3, ![1, 1, 2048]⟩
abbrev S2048 : Shape := ⟨1, ![2048]⟩
abbrev S1x1x1 : Shape := ⟨3, ![1, 1, 1]⟩
abbrev S32x24576x1 : Shape := ⟨3, ![32, 24576, 1]⟩
abbrev S32x22743x1 : Shape := ⟨3, ![32, 22743, 1]⟩
abbrev S32x22743x2 : Shape := ⟨3, ![32, 22743, 2]⟩
abbrev S32x22743x80 : Shape := ⟨3, ![32, 22743, 80]⟩

abbrev nBuf : Space → Nat
  | .hbm => 17
  | .vmem => 6
  | .smem => 0
  | _ => 0

abbrev bufTy : (tb : Table) → Fin (tcTables nBuf tb) → BufTy
  | .hbm, ⟨0, _⟩ => ⟨S32x22743x4, .f32⟩
  | .hbm, ⟨1, _⟩ => ⟨S32x50x4, .f32⟩
  | .hbm, ⟨2, _⟩ => ⟨S_, .i32⟩
  | .hbm, ⟨3, _⟩ => ⟨S_, .f32⟩
  | .hbm, ⟨4, _⟩ => ⟨S32x24576x4, .f32⟩
  | .hbm, ⟨5, _⟩ => ⟨S32x4x24576, .f32⟩
  | .hbm, ⟨6, _⟩ => ⟨S32x1x24576, .f32⟩
  | .hbm, ⟨7, _⟩ => ⟨S32x24576x1, .f32⟩
  | .hbm, ⟨8, _⟩ => ⟨S32x22743x1, .f32⟩
  | .hbm, ⟨9, _⟩ => ⟨S_, .f32⟩
  | .hbm, ⟨10, _⟩ => ⟨S32x22743x2, .f32⟩
  | .hbm, ⟨11, _⟩ => ⟨S_, .f32⟩
  | .hbm, ⟨12, _⟩ => ⟨S32x22743x2, .f32⟩
  | .hbm, ⟨13, _⟩ => ⟨S_, .f32⟩
  | .hbm, ⟨14, _⟩ => ⟨S32x22743x2, .f32⟩
  | .hbm, ⟨15, _⟩ => ⟨S_, .f32⟩
  | .hbm, ⟨16, _⟩ => ⟨S32x22743x80, .f32⟩
  | .local _ .vmem, ⟨0, _⟩ => ⟨S1x4x24576, .f32⟩
  | .local _ .vmem, ⟨1, _⟩ => ⟨S1x4x24576, .f32⟩
  | .local _ .vmem, ⟨2, _⟩ => ⟨S1x50x4, .f32⟩
  | .local _ .vmem, ⟨3, _⟩ => ⟨S1x50x4, .f32⟩
  | .local _ .vmem, ⟨4, _⟩ => ⟨S1x1x24576, .f32⟩
  | .local _ .vmem, ⟨5, _⟩ => ⟨S1x1x24576, .f32⟩
  | _, _ => ⟨S32x22743x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c12_i32 : BitVec 32 := 12#32
  let v0 : BitVec 32 := Scalar.addi c0_i32 c12_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c2048_i32 : BitVec 32 := 2048#32
  let v3 : BitVec 32 := Scalar.muli v2 c2048_i32
  v3
def k0_off1 (k0_t1 : Fin k0_t1_loop.trips) : Fin 3 → Nat :=
  let c0 : Index := 0#32
  let c0_3 : Index := 0#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c2048_i32 : BitVec 32 := 2048#32
  let v3 : BitVec 32 := Scalar.muli v2 c2048_i32
  let v4 : BitVec 32 := v3
  let v5 : Index := Scalar.indexCast v4
  ![0, 0, v5.toNat]
def k0_off2 (k0_t1 : Fin k0_t1_loop.trips) : Fin 3 → Nat :=
  let c0_4 : Index := 0#32
  let c1 : Index := 1#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c2048_i32 : BitVec 32 := 2048#32
  let v3 : BitVec 32 := Scalar.muli v2 c2048_i32
  let v4 : BitVec 32 := v3
  let v8 : Index := Scalar.indexCast v4
  ![0, 1, v8.toNat]
def k0_off3 (k0_t1 : Fin k0_t1_loop.trips) : Fin 3 → Nat :=
  let c0_5 : Index := 0#32
  let c2 : Index := 2#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c2048_i32 : BitVec 32 := 2048#32
  let v3 : BitVec 32 := Scalar.muli v2 c2048_i32
  let v4 : BitVec 32 := v3
  let v11 : Index := Scalar.indexCast v4
  ![0, 2, v11.toNat]
def k0_off4 (k0_t1 : Fin k0_t1_loop.trips) : Fin 3 → Nat :=
  let c0_6 : Index := 0#32
  let c3 : Index := 3#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c2048_i32 : BitVec 32 := 2048#32
  let v3 : BitVec 32 := Scalar.muli v2 c2048_i32
  let v4 : BitVec 32 := v3
  let v14 : Index := Scalar.indexCast v4
  ![0, 3, v14.toNat]
def k0_off5 (k0_t1 : Fin k0_t1_loop.trips) : Fin 3 → Nat :=
  let c0_714 : Index := 0#32
  let c0_715 : Index := 0#32
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let c2048_i32 : BitVec 32 := 2048#32
  let v3 : BitVec 32 := Scalar.muli v2 c2048_i32
  let v4 : BitVec 32 := v3
  let v1676 : Index := Scalar.indexCast v4
  ![0, 0, v1676.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x50x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x24576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S32x22743x4_S32x24576x4_000_018330_000 : S32x22743x4.Pads (![0, 0, 0] : Fin 3 → Nat) ![0, 1833, 0] ![0, 0, 0] S32x24576x4
  h_S_ : 0 < S_.numel
  transposes_S32x24576x4_S32x4x24576_0_2_1 : S32x24576x4.Transposes [0, 2, 1] S32x4x24576
  h_S1x1x2048 : 0 < S1x1x2048.numel
  shapeCasts_S1x1x2048_S2048 : S1x1x2048.ShapeCasts S2048
  inb_S1x50x4_S1x1x1_0_0_0 : ∀ a, (![0, 0, 0] : Fin 3 → Nat) a + S1x1x1.size a ≤ S1x50x4.size a
  h_S1x1x1 : 0 < S1x1x1.numel
  inpos_S1x1x1_p0_0_0 : ∀ a, (![0, 0, 0] : Fin 3 → Nat) a < S1x1x1.size a
  inb_S1x50x4_S1x1x1_0_0_1 : ∀ a, (![0, 0, 1] : Fin 3 → Nat) a + S1x1x1.size a ≤ S1x50x4.size a
  inb_S1x50x4_S1x1x1_0_0_2 : ∀ a, (![0, 0, 2] : Fin 3 → Nat) a + S1x1x1.size a ≤ S1x50x4.size a
  inb_S1x50x4_S1x1x1_0_0_3 : ∀ a, (![0, 0, 3] : Fin 3 → Nat) a + S1x1x1.size a ≤ S1x50x4.size a
  inb_S1x50x4_S1x1x1_0_1_0 : ∀ a, (![0, 1, 0] : Fin 3 → Nat) a + S1x1x1.size a ≤ S1x50x4.size a
  inb_S1x50x4_S1x1x1_0_1_1 : ∀ a, (![0, 1, 1] : Fin 3 → Nat) a + S1x1x1.size a ≤ S1x50x4.size a
  inb_S1x50x4_S1x1x1_0_1_2 : ∀ a, (![0, 1, 2] : Fin 3 → Nat) a + S1x1x1.size a ≤ S1x50x4.size a
  inb_S1x50x4_S1x1x1_0_1_3 : ∀ a, (![0, 1, 3] : Fin 3 → Nat) a + S1x1x1.size a ≤ S1x50x4.size a
  inb_S1x50x4_S1x1x1_0_2_0 : ∀ a, (![0, 2, 0] : Fin 3 → Nat) a + S1x1x1.size a ≤ S1x50x4.size a
  inb_S1x50x4_S1x1x1_0_2_1 : ∀ a, (![0, 2, 1] : Fin 3 → Nat) a + S1x1x1.size a ≤ S1x50x4.size a
  inb_S1x50x4_S1x1x1_0_2_2 : ∀ a, (![0, 2, 2] : Fin 3 → Nat) a + S1x1x1.size a ≤ S1x50x4.size a
  inb_S1x50x4_S1x1x1_0_2_3 : ∀ a, (![0, 2, 3] : Fin 3 → Nat) a + S1x1x1.size a ≤ S1x50x4.size a
  inb_S1x50x4_S1x1x1_0_3_0 : ∀ a, (![0, 3, 0] : Fin 3 → Nat) a + S1x1x1.size a ≤ S1x50x4.size a
  inb_S1x50x4_S1x1x1_0_3_1 : ∀ a, (![0, 3, 1] : Fin 3 → Nat) a + S1x1x1.size a ≤ S1x50x4.size a
  inb_S1x50x4_S1x1x1_0_3_2 : ∀ a, (![0, 3, 2] : Fin 3 → Nat) a + S1x1x1.size a ≤ S1x50x4.size a
  inb_S1x50x4_S1x1x1_0_3_3 : ∀ a, (![0, 3, 3] : Fin 3 → Nat) a + S1x1x1.size a ≤ S1x50x4.size a
  inb_S1x50x4_S1x1x1_0_4_0 : ∀ a, (![0, 4, 0] : Fin 3 → Nat) a + S1x1x1.size a ≤ S1x50x4.size a
  inb_S1x50x4_S1x1x1_0_4_1 : ∀ a, (![0, 4, 1] : Fin 3 → Nat) a + S1x1x1.size a ≤ S1x50x4.size a
  inb_S1x50x4_S1x1x1_0_4_2 : ∀ a, (![0, 4, 2] : Fin 3 → Nat) a + S1x1x1.size a ≤ S1x50x4.size a
  inb_S1x50x4_S1x1x1_0_4_3 : ∀ a, (![0, 4, 3] : Fin 3 → Nat) a + S1x1x1.size a ≤ S1x50x4.size a
  inb_S1x50x4_S1x1x1_0_5_0 : ∀ a, (![0, 5, 0] : Fin 3 → Nat) a + S1x1x1.size a ≤ S1x50x4.size a
  inb_S1x50x4_S1x1x1_0_5_1 : ∀ a, (![0, 5, 1] : Fin 3 → Nat) a + S1x1x1.size a ≤ S1x50x4.size a
  inb_S1x50x4_S1x1x1_0_5_2 : ∀ a, (![0, 5, 2] : Fin 3 → Nat) a + S1x1x1.size a ≤ S1x50x4.size a
  inb_S1x50x4_S1x1x1_0_5_3 : ∀ a, (![0, 5, 3] : Fin 3 → Nat) a + S1x1x1.size a ≤ S1x50x4.size a
  inb_S1x50x4_S1x1x1_0_6_0 : ∀ a, (![0, 6, 0] : Fin 3 → Nat) a + S1x1x1.size a ≤ S1x50x4.size a
  inb_S1x50x4_S1x1x1_0_6_1 : ∀ a, (![0, 6, 1] : Fin 3 → Nat) a + S1x1x1.size a ≤ S1x50x4.size a
  inb_S1x50x4_S1x1x1_0_6_2 : ∀ a, (![0, 6, 2] : Fin 3 → Nat) a + S1x1x1.size a ≤ S1x50x4.size a
  inb_S1x50x4_S1x1x1_0_6_3 : ∀ a, (![0, 6, 3] : Fin 3 → Nat) a + S1x1x1.size a ≤ S1x50x4.size a
  inb_S1x50x4_S1x1x1_0_7_0 : ∀ a, (![0, 7, 0] : Fin 3 → Nat) a + S1x1x1.size a ≤ S1x50x4.size a
  inb_S1x50x4_S1x1x1_0_7_1 : ∀ a, (![0, 7, 1] : Fin 3 → Nat) a + S1x1x1.size a ≤ S1x50x4.size a
  inb_S1x50x4_S1x1x1_0_7_2 : ∀ a, (![0, 7, 2] : Fin 3 → Nat) a + S1x1x1.size a ≤ S1x50x4.size a
  inb_S1x50x4_S1x1x1_0_7_3 : ∀ a, (![0, 7, 3] : Fin 3 → Nat) a + S1x1x1.size a ≤ S1x50x4.size a
  inb_S1x50x4_S1x1x1_0_8_0 : ∀ a, (![0, 8, 0] : Fin 3 → Nat) a + S1x1x1.size a ≤ S1x50x4.size a
  inb_S1x50x4_S1x1x1_0_8_1 : ∀ a, (![0, 8, 1] : Fin 3 → Nat) a + S1x1x1.size a ≤ S1x50x4.size a
  inb_S1x50x4_S1x1x1_0_8_2 : ∀ a, (![0, 8, 2] : Fin 3 → Nat) a + S1x1x1.size a ≤ S1x50x4.size a
  inb_S1x50x4_S1x1x1_0_8_3 : ∀ a, (![0, 8, 3] : Fin 3 → Nat) a + S1x1x1.size a ≤ S1x50x4.size a
  inb_S1x50x4_S1x1x1_0_9_0 : ∀ a, (![0, 9, 0] : Fin 3 → Nat) a + S1x1x1.size a ≤ S1x50x4.size a
  inb_S1x50x4_S1x1x1_0_9_1 : ∀ a, (![0, 9, 1] : Fin 3 → Nat) a + S1x1x1.size a ≤ S1x50x4.size a
  inb_S1x50x4_S1x1x1_0_9_2 : ∀ a, (![0, 9, 2] : Fin 3 → Nat) a + S1x1x1.size a ≤ S1x50x4.size a
  inb_S1x50x4_S1x1x1_0_9_3 : ∀ a, (![0, 9, 3] : Fin 3 → Nat) a + S1x1x1.size a ≤ S1x50x4.size a
  inb_S1x50x4_S1x1x1_0_10_0 : ∀ a, (![0, 10, 0] : Fin 3 → Nat) a + S1x1x1.size a ≤ S1x50x4.size a
  inb_S1x50x4_S1x1x1_0_10_1 : ∀ a, (![0, 10, 1] : Fin 3 → Nat) a + S1x1x1.size a ≤ S1x50x4.size a
  inb_S1x50x4_S1x1x1_0_10_2 : ∀ a, (![0, 10, 2] : Fin 3 → Nat) a + S1x1x1.size a ≤ S1x50x4.size a
  inb_S1x50x4_S1x1x1_0_10_3 : ∀ a, (![0, 10, 3] : Fin 3 → Nat) a + S1x1x1.size a ≤ S1x50x4.size a
  inb_S1x50x4_S1x1x1_0_11_0 : ∀ a, (![0, 11, 0] : Fin 3 → Nat) a + S1x1x1.size a ≤ S1x50x4.size a
  inb_S1x50x4_S1x1x1_0_11_1 : ∀ a, (![0, 11, 1] : Fin 3 → Nat) a + S1x1x1.size a ≤ S1x50x4.size a
  inb_S1x50x4_S1x1x1_0_11_2 : ∀ a, (![0, 11, 2] : Fin 3 → Nat) a + S1x1x1.size a ≤ S1x50x4.size a
  inb_S1x50x4_S1x1x1_0_11_3 : ∀ a, (![0, 11, 3] : Fin 3 → Nat) a + S1x1x1.size a ≤ S1x50x4.size a
  inb_S1x50x4_S1x1x1_0_12_0 : ∀ a, (![0, 12, 0] : Fin 3 → Nat) a + S1x1x1.size a ≤ S1x50x4.size a
  inb_S1x50x4_S1x1x1_0_12_1 : ∀ a, (![0, 12, 1] : Fin 3 → Nat) a + S1x1x1.size a ≤ S1x50x4.size a
  inb_S1x50x4_S1x1x1_0_12_2 : ∀ a, (![0, 12, 2] : Fin 3 → Nat) a + S1x1x1.size a ≤ S1x50x4.size a
  inb_S1x50x4_S1x1x1_0_12_3 : ∀ a, (![0, 12, 3] : Fin 3 → Nat) a + S1x1x1.size a ≤ S1x50x4.size a
  inb_S1x50x4_S1x1x1_0_13_0 : ∀ a, (![0, 13, 0] : Fin 3 → Nat) a + S1x1x1.size a ≤ S1x50x4.size a
  inb_S1x50x4_S1x1x1_0_13_1 : ∀ a, (![0, 13, 1] : Fin 3 → Nat) a + S1x1x1.size a ≤ S1x50x4.size a
  inb_S1x50x4_S1x1x1_0_13_2 : ∀ a, (![0, 13, 2] : Fin 3 → Nat) a + S1x1x1.size a ≤ S1x50x4.size a
  inb_S1x50x4_S1x1x1_0_13_3 : ∀ a, (![0, 13, 3] : Fin 3 → Nat) a + S1x1x1.size a ≤ S1x50x4.size a
  inb_S1x50x4_S1x1x1_0_14_0 : ∀ a, (![0, 14, 0] : Fin 3 → Nat) a + S1x1x1.size a ≤ S1x50x4.size a
  inb_S1x50x4_S1x1x1_0_14_1 : ∀ a, (![0, 14, 1] : Fin 3 → Nat) a + S1x1x1.size a ≤ S1x50x4.size a
  inb_S1x50x4_S1x1x1_0_14_2 : ∀ a, (![0, 14, 2] : Fin 3 → Nat) a + S1x1x1.size a ≤ S1x50x4.size a
  inb_S1x50x4_S1x1x1_0_14_3 : ∀ a, (![0, 14, 3] : Fin 3 → Nat) a + S1x1x1.size a ≤ S1x50x4.size a
  inb_S1x50x4_S1x1x1_0_15_0 : ∀ a, (![0, 15, 0] : Fin 3 → Nat) a + S1x1x1.size a ≤ S1x50x4.size a
  inb_S1x50x4_S1x1x1_0_15_1 : ∀ a, (![0, 15, 1] : Fin 3 → Nat) a + S1x1x1.size a ≤ S1x50x4.size a
  inb_S1x50x4_S1x1x1_0_15_2 : ∀ a, (![0, 15, 2] : Fin 3 → Nat) a + S1x1x1.size a ≤ S1x50x4.size a
  inb_S1x50x4_S1x1x1_0_15_3 : ∀ a, (![0, 15, 3] : Fin 3 → Nat) a + S1x1x1.size a ≤ S1x50x4.size a
  inb_S1x50x4_S1x1x1_0_16_0 : ∀ a, (![0, 16, 0] : Fin 3 → Nat) a + S1x1x1.size a ≤ S1x50x4.size a
  inb_S1x50x4_S1x1x1_0_16_1 : ∀ a, (![0, 16, 1] : Fin 3 → Nat) a + S1x1x1.size a ≤ S1x50x4.size a
  inb_S1x50x4_S1x1x1_0_16_2 : ∀ a, (![0, 16, 2] : Fin 3 → Nat) a + S1x1x1.size a ≤ S1x50x4.size a
  inb_S1x50x4_S1x1x1_0_16_3 : ∀ a, (![0, 16, 3] : Fin 3 → Nat) a + S1x1x1.size a ≤ S1x50x4.size a
  inb_S1x50x4_S1x1x1_0_17_0 : ∀ a, (![0, 17, 0] : Fin 3 → Nat) a + S1x1x1.size a ≤ S1x50x4.size a
  inb_S1x50x4_S1x1x1_0_17_1 : ∀ a, (![0, 17, 1] : Fin 3 → Nat) a + S1x1x1.size a ≤ S1x50x4.size a
  inb_S1x50x4_S1x1x1_0_17_2 : ∀ a, (![0, 17, 2] : Fin 3 → Nat) a + S1x1x1.size a ≤ S1x50x4.size a
  inb_S1x50x4_S1x1x1_0_17_3 : ∀ a, (![0, 17, 3] : Fin 3 → Nat) a + S1x1x1.size a ≤ S1x50x4.size a
  inb_S1x50x4_S1x1x1_0_18_0 : ∀ a, (![0, 18, 0] : Fin 3 → Nat) a + S1x1x1.size a ≤ S1x50x4.size a
  inb_S1x50x4_S1x1x1_0_18_1 : ∀ a, (![0, 18, 1] : Fin 3 → Nat) a + S1x1x1.size a ≤ S1x50x4.size a
  inb_S1x50x4_S1x1x1_0_18_2 : ∀ a, (![0, 18, 2] : Fin 3 → Nat) a + S1x1x1.size a ≤ S1x50x4.size a
  inb_S1x50x4_S1x1x1_0_18_3 : ∀ a, (![0, 18, 3] : Fin 3 → Nat) a + S1x1x1.size a ≤ S1x50x4.size a
  inb_S1x50x4_S1x1x1_0_19_0 : ∀ a, (![0, 19, 0] : Fin 3 → Nat) a + S1x1x1.size a ≤ S1x50x4.size a
  inb_S1x50x4_S1x1x1_0_19_1 : ∀ a, (![0, 19, 1] : Fin 3 → Nat) a + S1x1x1.size a ≤ S1x50x4.size a
  inb_S1x50x4_S1x1x1_0_19_2 : ∀ a, (![0, 19, 2] : Fin 3 → Nat) a + S1x1x1.size a ≤ S1x50x4.size a
  inb_S1x50x4_S1x1x1_0_19_3 : ∀ a, (![0, 19, 3] : Fin 3 → Nat) a + S1x1x1.size a ≤ S1x50x4.size a
  inb_S1x50x4_S1x1x1_0_20_0 : ∀ a, (![0, 20, 0] : Fin 3 → Nat) a + S1x1x1.size a ≤ S1x50x4.size a
  inb_S1x50x4_S1x1x1_0_20_1 : ∀ a, (![0, 20, 1] : Fin 3 → Nat) a + S1x1x1.size a ≤ S1x50x4.size a
  inb_S1x50x4_S1x1x1_0_20_2 : ∀ a, (![0, 20, 2] : Fin 3 → Nat) a + S1x1x1.size a ≤ S1x50x4.size a
  inb_S1x50x4_S1x1x1_0_20_3 : ∀ a, (![0, 20, 3] : Fin 3 → Nat) a + S1x1x1.size a ≤ S1x50x4.size a
  inb_S1x50x4_S1x1x1_0_21_0 : ∀ a, (![0, 21, 0] : Fin 3 → Nat) a + S1x1x1.size a ≤ S1x50x4.size a
  inb_S1x50x4_S1x1x1_0_21_1 : ∀ a, (![0, 21, 1] : Fin 3 → Nat) a + S1x1x1.size a ≤ S1x50x4.size a
  inb_S1x50x4_S1x1x1_0_21_2 : ∀ a, (![0, 21, 2] : Fin 3 → Nat) a + S1x1x1.size a ≤ S1x50x4.size a
  inb_S1x50x4_S1x1x1_0_21_3 : ∀ a, (![0, 21, 3] : Fin 3 → Nat) a + S1x1x1.size a ≤ S1x50x4.size a
  inb_S1x50x4_S1x1x1_0_22_0 : ∀ a, (![0, 22, 0] : Fin 3 → Nat) a + S1x1x1.size a ≤ S1x50x4.size a
  inb_S1x50x4_S1x1x1_0_22_1 : ∀ a, (![0, 22, 1] : Fin 3 → Nat) a + S1x1x1.size a ≤ S1x50x4.size a
  inb_S1x50x4_S1x1x1_0_22_2 : ∀ a, (![0, 22, 2] : Fin 3 → Nat) a + S1x1x1.size a ≤ S1x50x4.size a
  inb_S1x50x4_S1x1x1_0_22_3 : ∀ a, (![0, 22, 3] : Fin 3 → Nat) a + S1x1x1.size a ≤ S1x50x4.size a
  inb_S1x50x4_S1x1x1_0_23_0 : ∀ a, (![0, 23, 0] : Fin 3 → Nat) a + S1x1x1.size a ≤ S1x50x4.size a
  inb_S1x50x4_S1x1x1_0_23_1 : ∀ a, (![0, 23, 1] : Fin 3 → Nat) a + S1x1x1.size a ≤ S1x50x4.size a
  inb_S1x50x4_S1x1x1_0_23_2 : ∀ a, (![0, 23, 2] : Fin 3 → Nat) a + S1x1x1.size a ≤ S1x50x4.size a
  inb_S1x50x4_S1x1x1_0_23_3 : ∀ a, (![0, 23, 3] : Fin 3 → Nat) a + S1x1x1.size a ≤ S1x50x4.size a
  inb_S1x50x4_S1x1x1_0_24_0 : ∀ a, (![0, 24, 0] : Fin 3 → Nat) a + S1x1x1.size a ≤ S1x50x4.size a
  inb_S1x50x4_S1x1x1_0_24_1 : ∀ a, (![0, 24, 1] : Fin 3 → Nat) a + S1x1x1.size a ≤ S1x50x4.size a
  inb_S1x50x4_S1x1x1_0_24_2 : ∀ a, (![0, 24, 2] : Fin 3 → Nat) a + S1x1x1.size a ≤ S1x50x4.size a
  inb_S1x50x4_S1x1x1_0_24_3 : ∀ a, (![0, 24, 3] : Fin 3 → Nat) a + S1x1x1.size a ≤ S1x50x4.size a
  inb_S1x50x4_S1x1x1_0_25_0 : ∀ a, (![0, 25, 0] : Fin 3 → Nat) a + S1x1x1.size a ≤ S1x50x4.size a
  inb_S1x50x4_S1x1x1_0_25_1 : ∀ a, (![0, 25, 1] : Fin 3 → Nat) a + S1x1x1.size a ≤ S1x50x4.size a
  inb_S1x50x4_S1x1x1_0_25_2 : ∀ a, (![0, 25, 2] : Fin 3 → Nat) a + S1x1x1.size a ≤ S1x50x4.size a
  inb_S1x50x4_S1x1x1_0_25_3 : ∀ a, (![0, 25, 3] : Fin 3 → Nat) a + S1x1x1.size a ≤ S1x50x4.size a
  inb_S1x50x4_S1x1x1_0_26_0 : ∀ a, (![0, 26, 0] : Fin 3 → Nat) a + S1x1x1.size a ≤ S1x50x4.size a
  inb_S1x50x4_S1x1x1_0_26_1 : ∀ a, (![0, 26, 1] : Fin 3 → Nat) a + S1x1x1.size a ≤ S1x50x4.size a
  inb_S1x50x4_S1x1x1_0_26_2 : ∀ a, (![0, 26, 2] : Fin 3 → Nat) a + S1x1x1.size a ≤ S1x50x4.size a
  inb_S1x50x4_S1x1x1_0_26_3 : ∀ a, (![0, 26, 3] : Fin 3 → Nat) a + S1x1x1.size a ≤ S1x50x4.size a
  inb_S1x50x4_S1x1x1_0_27_0 : ∀ a, (![0, 27, 0] : Fin 3 → Nat) a + S1x1x1.size a ≤ S1x50x4.size a
  inb_S1x50x4_S1x1x1_0_27_1 : ∀ a, (![0, 27, 1] : Fin 3 → Nat) a + S1x1x1.size a ≤ S1x50x4.size a
  inb_S1x50x4_S1x1x1_0_27_2 : ∀ a, (![0, 27, 2] : Fin 3 → Nat) a + S1x1x1.size a ≤ S1x50x4.size a
  inb_S1x50x4_S1x1x1_0_27_3 : ∀ a, (![0, 27, 3] : Fin 3 → Nat) a + S1x1x1.size a ≤ S1x50x4.size a
  inb_S1x50x4_S1x1x1_0_28_0 : ∀ a, (![0, 28, 0] : Fin 3 → Nat) a + S1x1x1.size a ≤ S1x50x4.size a
  inb_S1x50x4_S1x1x1_0_28_1 : ∀ a, (![0, 28, 1] : Fin 3 → Nat) a + S1x1x1.size a ≤ S1x50x4.size a
  inb_S1x50x4_S1x1x1_0_28_2 : ∀ a, (![0, 28, 2] : Fin 3 → Nat) a + S1x1x1.size a ≤ S1x50x4.size a
  inb_S1x50x4_S1x1x1_0_28_3 : ∀ a, (![0, 28, 3] : Fin 3 → Nat) a + S1x1x1.size a ≤ S1x50x4.size a
  inb_S1x50x4_S1x1x1_0_29_0 : ∀ a, (![0, 29, 0] : Fin 3 → Nat) a + S1x1x1.size a ≤ S1x50x4.size a
  inb_S1x50x4_S1x1x1_0_29_1 : ∀ a, (![0, 29, 1] : Fin 3 → Nat) a + S1x1x1.size a ≤ S1x50x4.size a
  inb_S1x50x4_S1x1x1_0_29_2 : ∀ a, (![0, 29, 2] : Fin 3 → Nat) a + S1x1x1.size a ≤ S1x50x4.size a
  inb_S1x50x4_S1x1x1_0_29_3 : ∀ a, (![0, 29, 3] : Fin 3 → Nat) a + S1x1x1.size a ≤ S1x50x4.size a
  inb_S1x50x4_S1x1x1_0_30_0 : ∀ a, (![0, 30, 0] : Fin 3 → Nat) a + S1x1x1.size a ≤ S1x50x4.size a
  inb_S1x50x4_S1x1x1_0_30_1 : ∀ a, (![0, 30, 1] : Fin 3 → Nat) a + S1x1x1.size a ≤ S1x50x4.size a
  inb_S1x50x4_S1x1x1_0_30_2 : ∀ a, (![0, 30, 2] : Fin 3 → Nat) a + S1x1x1.size a ≤ S1x50x4.size a
  inb_S1x50x4_S1x1x1_0_30_3 : ∀ a, (![0, 30, 3] : Fin 3 → Nat) a + S1x1x1.size a ≤ S1x50x4.size a
  inb_S1x50x4_S1x1x1_0_31_0 : ∀ a, (![0, 31, 0] : Fin 3 → Nat) a + S1x1x1.size a ≤ S1x50x4.size a
  inb_S1x50x4_S1x1x1_0_31_1 : ∀ a, (![0, 31, 1] : Fin 3 → Nat) a + S1x1x1.size a ≤ S1x50x4.size a
  inb_S1x50x4_S1x1x1_0_31_2 : ∀ a, (![0, 31, 2] : Fin 3 → Nat) a + S1x1x1.size a ≤ S1x50x4.size a
  inb_S1x50x4_S1x1x1_0_31_3 : ∀ a, (![0, 31, 3] : Fin 3 → Nat) a + S1x1x1.size a ≤ S1x50x4.size a
  inb_S1x50x4_S1x1x1_0_32_0 : ∀ a, (![0, 32, 0] : Fin 3 → Nat) a + S1x1x1.size a ≤ S1x50x4.size a
  inb_S1x50x4_S1x1x1_0_32_1 : ∀ a, (![0, 32, 1] : Fin 3 → Nat) a + S1x1x1.size a ≤ S1x50x4.size a
  inb_S1x50x4_S1x1x1_0_32_2 : ∀ a, (![0, 32, 2] : Fin 3 → Nat) a + S1x1x1.size a ≤ S1x50x4.size a
  inb_S1x50x4_S1x1x1_0_32_3 : ∀ a, (![0, 32, 3] : Fin 3 → Nat) a + S1x1x1.size a ≤ S1x50x4.size a
  inb_S1x50x4_S1x1x1_0_33_0 : ∀ a, (![0, 33, 0] : Fin 3 → Nat) a + S1x1x1.size a ≤ S1x50x4.size a
  inb_S1x50x4_S1x1x1_0_33_1 : ∀ a, (![0, 33, 1] : Fin 3 → Nat) a + S1x1x1.size a ≤ S1x50x4.size a
  inb_S1x50x4_S1x1x1_0_33_2 : ∀ a, (![0, 33, 2] : Fin 3 → Nat) a + S1x1x1.size a ≤ S1x50x4.size a
  inb_S1x50x4_S1x1x1_0_33_3 : ∀ a, (![0, 33, 3] : Fin 3 → Nat) a + S1x1x1.size a ≤ S1x50x4.size a
  inb_S1x50x4_S1x1x1_0_34_0 : ∀ a, (![0, 34, 0] : Fin 3 → Nat) a + S1x1x1.size a ≤ S1x50x4.size a
  inb_S1x50x4_S1x1x1_0_34_1 : ∀ a, (![0, 34, 1] : Fin 3 → Nat) a + S1x1x1.size a ≤ S1x50x4.size a
  inb_S1x50x4_S1x1x1_0_34_2 : ∀ a, (![0, 34, 2] : Fin 3 → Nat) a + S1x1x1.size a ≤ S1x50x4.size a
  inb_S1x50x4_S1x1x1_0_34_3 : ∀ a, (![0, 34, 3] : Fin 3 → Nat) a + S1x1x1.size a ≤ S1x50x4.size a
  inb_S1x50x4_S1x1x1_0_35_0 : ∀ a, (![0, 35, 0] : Fin 3 → Nat) a + S1x1x1.size a ≤ S1x50x4.size a
  inb_S1x50x4_S1x1x1_0_35_1 : ∀ a, (![0, 35, 1] : Fin 3 → Nat) a + S1x1x1.size a ≤ S1x50x4.size a
  inb_S1x50x4_S1x1x1_0_35_2 : ∀ a, (![0, 35, 2] : Fin 3 → Nat) a + S1x1x1.size a ≤ S1x50x4.size a
  inb_S1x50x4_S1x1x1_0_35_3 : ∀ a, (![0, 35, 3] : Fin 3 → Nat) a + S1x1x1.size a ≤ S1x50x4.size a
  inb_S1x50x4_S1x1x1_0_36_0 : ∀ a, (![0, 36, 0] : Fin 3 → Nat) a + S1x1x1.size a ≤ S1x50x4.size a
  inb_S1x50x4_S1x1x1_0_36_1 : ∀ a, (![0, 36, 1] : Fin 3 → Nat) a + S1x1x1.size a ≤ S1x50x4.size a
  inb_S1x50x4_S1x1x1_0_36_2 : ∀ a, (![0, 36, 2] : Fin 3 → Nat) a + S1x1x1.size a ≤ S1x50x4.size a
  inb_S1x50x4_S1x1x1_0_36_3 : ∀ a, (![0, 36, 3] : Fin 3 → Nat) a + S1x1x1.size a ≤ S1x50x4.size a
  inb_S1x50x4_S1x1x1_0_37_0 : ∀ a, (![0, 37, 0] : Fin 3 → Nat) a + S1x1x1.size a ≤ S1x50x4.size a
  inb_S1x50x4_S1x1x1_0_37_1 : ∀ a, (![0, 37, 1] : Fin 3 → Nat) a + S1x1x1.size a ≤ S1x50x4.size a
  inb_S1x50x4_S1x1x1_0_37_2 : ∀ a, (![0, 37, 2] : Fin 3 → Nat) a + S1x1x1.size a ≤ S1x50x4.size a
  inb_S1x50x4_S1x1x1_0_37_3 : ∀ a, (![0, 37, 3] : Fin 3 → Nat) a + S1x1x1.size a ≤ S1x50x4.size a
  inb_S1x50x4_S1x1x1_0_38_0 : ∀ a, (![0, 38, 0] : Fin 3 → Nat) a + S1x1x1.size a ≤ S1x50x4.size a
  inb_S1x50x4_S1x1x1_0_38_1 : ∀ a, (![0, 38, 1] : Fin 3 → Nat) a + S1x1x1.size a ≤ S1x50x4.size a
  inb_S1x50x4_S1x1x1_0_38_2 : ∀ a, (![0, 38, 2] : Fin 3 → Nat) a + S1x1x1.size a ≤ S1x50x4.size a
  inb_S1x50x4_S1x1x1_0_38_3 : ∀ a, (![0, 38, 3] : Fin 3 → Nat) a + S1x1x1.size a ≤ S1x50x4.size a
  inb_S1x50x4_S1x1x1_0_39_0 : ∀ a, (![0, 39, 0] : Fin 3 → Nat) a + S1x1x1.size a ≤ S1x50x4.size a
  inb_S1x50x4_S1x1x1_0_39_1 : ∀ a, (![0, 39, 1] : Fin 3 → Nat) a + S1x1x1.size a ≤ S1x50x4.size a
  inb_S1x50x4_S1x1x1_0_39_2 : ∀ a, (![0, 39, 2] : Fin 3 → Nat) a + S1x1x1.size a ≤ S1x50x4.size a
  inb_S1x50x4_S1x1x1_0_39_3 : ∀ a, (![0, 39, 3] : Fin 3 → Nat) a + S1x1x1.size a ≤ S1x50x4.size a
  inb_S1x50x4_S1x1x1_0_40_0 : ∀ a, (![0, 40, 0] : Fin 3 → Nat) a + S1x1x1.size a ≤ S1x50x4.size a
  inb_S1x50x4_S1x1x1_0_40_1 : ∀ a, (![0, 40, 1] : Fin 3 → Nat) a + S1x1x1.size a ≤ S1x50x4.size a
  inb_S1x50x4_S1x1x1_0_40_2 : ∀ a, (![0, 40, 2] : Fin 3 → Nat) a + S1x1x1.size a ≤ S1x50x4.size a
  inb_S1x50x4_S1x1x1_0_40_3 : ∀ a, (![0, 40, 3] : Fin 3 → Nat) a + S1x1x1.size a ≤ S1x50x4.size a
  inb_S1x50x4_S1x1x1_0_41_0 : ∀ a, (![0, 41, 0] : Fin 3 → Nat) a + S1x1x1.size a ≤ S1x50x4.size a
  inb_S1x50x4_S1x1x1_0_41_1 : ∀ a, (![0, 41, 1] : Fin 3 → Nat) a + S1x1x1.size a ≤ S1x50x4.size a
  inb_S1x50x4_S1x1x1_0_41_2 : ∀ a, (![0, 41, 2] : Fin 3 → Nat) a + S1x1x1.size a ≤ S1x50x4.size a
  inb_S1x50x4_S1x1x1_0_41_3 : ∀ a, (![0, 41, 3] : Fin 3 → Nat) a + S1x1x1.size a ≤ S1x50x4.size a
  inb_S1x50x4_S1x1x1_0_42_0 : ∀ a, (![0, 42, 0] : Fin 3 → Nat) a + S1x1x1.size a ≤ S1x50x4.size a
  inb_S1x50x4_S1x1x1_0_42_1 : ∀ a, (![0, 42, 1] : Fin 3 → Nat) a + S1x1x1.size a ≤ S1x50x4.size a
  inb_S1x50x4_S1x1x1_0_42_2 : ∀ a, (![0, 42, 2] : Fin 3 → Nat) a + S1x1x1.size a ≤ S1x50x4.size a
  inb_S1x50x4_S1x1x1_0_42_3 : ∀ a, (![0, 42, 3] : Fin 3 → Nat) a + S1x1x1.size a ≤ S1x50x4.size a
  inb_S1x50x4_S1x1x1_0_43_0 : ∀ a, (![0, 43, 0] : Fin 3 → Nat) a + S1x1x1.size a ≤ S1x50x4.size a
  inb_S1x50x4_S1x1x1_0_43_1 : ∀ a, (![0, 43, 1] : Fin 3 → Nat) a + S1x1x1.size a ≤ S1x50x4.size a
  inb_S1x50x4_S1x1x1_0_43_2 : ∀ a, (![0, 43, 2] : Fin 3 → Nat) a + S1x1x1.size a ≤ S1x50x4.size a
  inb_S1x50x4_S1x1x1_0_43_3 : ∀ a, (![0, 43, 3] : Fin 3 → Nat) a + S1x1x1.size a ≤ S1x50x4.size a
  inb_S1x50x4_S1x1x1_0_44_0 : ∀ a, (![0, 44, 0] : Fin 3 → Nat) a + S1x1x1.size a ≤ S1x50x4.size a
  inb_S1x50x4_S1x1x1_0_44_1 : ∀ a, (![0, 44, 1] : Fin 3 → Nat) a + S1x1x1.size a ≤ S1x50x4.size a
  inb_S1x50x4_S1x1x1_0_44_2 : ∀ a, (![0, 44, 2] : Fin 3 → Nat) a + S1x1x1.size a ≤ S1x50x4.size a
  inb_S1x50x4_S1x1x1_0_44_3 : ∀ a, (![0, 44, 3] : Fin 3 → Nat) a + S1x1x1.size a ≤ S1x50x4.size a
  inb_S1x50x4_S1x1x1_0_45_0 : ∀ a, (![0, 45, 0] : Fin 3 → Nat) a + S1x1x1.size a ≤ S1x50x4.size a
  inb_S1x50x4_S1x1x1_0_45_1 : ∀ a, (![0, 45, 1] : Fin 3 → Nat) a + S1x1x1.size a ≤ S1x50x4.size a
  inb_S1x50x4_S1x1x1_0_45_2 : ∀ a, (![0, 45, 2] : Fin 3 → Nat) a + S1x1x1.size a ≤ S1x50x4.size a
  inb_S1x50x4_S1x1x1_0_45_3 : ∀ a, (![0, 45, 3] : Fin 3 → Nat) a + S1x1x1.size a ≤ S1x50x4.size a
  inb_S1x50x4_S1x1x1_0_46_0 : ∀ a, (![0, 46, 0] : Fin 3 → Nat) a + S1x1x1.size a ≤ S1x50x4.size a
  inb_S1x50x4_S1x1x1_0_46_1 : ∀ a, (![0, 46, 1] : Fin 3 → Nat) a + S1x1x1.size a ≤ S1x50x4.size a
  inb_S1x50x4_S1x1x1_0_46_2 : ∀ a, (![0, 46, 2] : Fin 3 → Nat) a + S1x1x1.size a ≤ S1x50x4.size a
  inb_S1x50x4_S1x1x1_0_46_3 : ∀ a, (![0, 46, 3] : Fin 3 → Nat) a + S1x1x1.size a ≤ S1x50x4.size a
  inb_S1x50x4_S1x1x1_0_47_0 : ∀ a, (![0, 47, 0] : Fin 3 → Nat) a + S1x1x1.size a ≤ S1x50x4.size a
  inb_S1x50x4_S1x1x1_0_47_1 : ∀ a, (![0, 47, 1] : Fin 3 → Nat) a + S1x1x1.size a ≤ S1x50x4.size a
  inb_S1x50x4_S1x1x1_0_47_2 : ∀ a, (![0, 47, 2] : Fin 3 → Nat) a + S1x1x1.size a ≤ S1x50x4.size a
  inb_S1x50x4_S1x1x1_0_47_3 : ∀ a, (![0, 47, 3] : Fin 3 → Nat) a + S1x1x1.size a ≤ S1x50x4.size a
  inb_S1x50x4_S1x1x1_0_48_0 : ∀ a, (![0, 48, 0] : Fin 3 → Nat) a + S1x1x1.size a ≤ S1x50x4.size a
  inb_S1x50x4_S1x1x1_0_48_1 : ∀ a, (![0, 48, 1] : Fin 3 → Nat) a + S1x1x1.size a ≤ S1x50x4.size a
  inb_S1x50x4_S1x1x1_0_48_2 : ∀ a, (![0, 48, 2] : Fin 3 → Nat) a + S1x1x1.size a ≤ S1x50x4.size a
  inb_S1x50x4_S1x1x1_0_48_3 : ∀ a, (![0, 48, 3] : Fin 3 → Nat) a + S1x1x1.size a ≤ S1x50x4.size a
  inb_S1x50x4_S1x1x1_0_49_0 : ∀ a, (![0, 49, 0] : Fin 3 → Nat) a + S1x1x1.size a ≤ S1x50x4.size a
  inb_S1x50x4_S1x1x1_0_49_1 : ∀ a, (![0, 49, 1] : Fin 3 → Nat) a + S1x1x1.size a ≤ S1x50x4.size a
  inb_S1x50x4_S1x1x1_0_49_2 : ∀ a, (![0, 49, 2] : Fin 3 → Nat) a + S1x1x1.size a ≤ S1x50x4.size a
  inb_S1x50x4_S1x1x1_0_49_3 : ∀ a, (![0, 49, 3] : Fin 3 → Nat) a + S1x1x1.size a ≤ S1x50x4.size a
  shapeCasts_S2048_S1x1x2048 : S2048.ShapeCasts S1x1x2048
  transposes_S32x1x24576_S32x24576x1_0_2_1 : S32x1x24576.Transposes [0, 2, 1] S32x24576x1
  slices_S32x24576x1_S32x22743x1_0_0_0 : S32x24576x1.Slices ![0, 0, 0] S32x22743x1
  bcast_S_S32x22743x2 : S_.BroadcastsInDim S32x22743x2 (![] : Fin 0 → Fin S32x22743x2.rank)
  bcast_S_S32x22743x80 : S_.BroadcastsInDim S32x22743x80 (![] : Fin 0 → Fin S32x22743x80.rank)
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x1x2048.size a ≤ S1x4x24576.size a
  k0_off2_inb : ∀ k0_t1 : Fin k0_t1_loop.trips, ∀ a, (k0_off2 k0_t1) a + S1x1x2048.size a ≤ S1x4x24576.size a
  k0_off3_inb : ∀ k0_t1 : Fin k0_t1_loop.trips, ∀ a, (k0_off3 k0_t1) a + S1x1x2048.size a ≤ S1x4x24576.size a
  k0_off4_inb : ∀ k0_t1 : Fin k0_t1_loop.trips, ∀ a, (k0_off4 k0_t1) a + S1x1x2048.size a ≤ S1x4x24576.size a
  k0_off5_inb : ∀ k0_t1 : Fin k0_t1_loop.trips, ∀ a, (k0_off5 k0_t1) a + S1x1x2048.size a ≤ S1x1x24576.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x24576.size a ≤ S32x4x24576.size a
  hwx0_0 : ∀ i : grid0.Coords, EltTy.bits .f32 = 32 ∨ (Rect.block (s := S32x4x24576) S1x4x24576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x4.size a ≤ S32x50x4.size a
  hwx0_1 : ∀ i : grid0.Coords, EltTy.bits .f32 = 32 ∨ (Rect.block (s := S32x50x4) S1x50x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x24576.size a ≤ S32x1x24576.size a
  hwx0_2 : ∀ i : grid0.Coords, EltTy.bits .f32 = 32 ∨ (Rect.block (s := S32x1x24576) S1x1x24576.size (cc0_transform_2 i) (hinb0_2 i)).WholeWords (EltTy.packing .f32)

variable [Facts₀]

abbrev win0_0 : Pipeline.Window sig grid0 :=
  Pipeline.Window.ofSpec (Memref.whole main_v1) S1x4x24576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x50x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x24576.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x22743x4 : Shape := ⟨3, ![32, 22743, 4]⟩
abbrev S32x50x4 : Shape := ⟨3, ![32, 50, 4]⟩
abbrev S32x22743x2 : Shape := ⟨3, ![32, 22743, 2]⟩
abbrev S32x22743x1x2 : Shape := ⟨4, ![32, 22743, 1, 2]⟩
abbrev S32x50x2 : Shape := ⟨3, ![32, 50, 2]⟩
abbrev S32x1x50x2 : Shape := ⟨4, ![32, 1, 50, 2]⟩
abbrev S32x22743x50x2 : Shape := ⟨4, ![32, 22743, 50, 2]⟩
abbrev S_ : Shape := ⟨0, ![]⟩
abbrev S32x22743x50x1 : Shape := ⟨4, ![32, 22743, 50, 1]⟩
abbrev S32x22743x50 : Shape := ⟨3, ![32, 22743, 50]⟩
abbrev S32x22743x1 : Shape := ⟨3, ![32, 22743, 1]⟩
abbrev S32x22743 : Shape := ⟨2, ![32, 22743]⟩
abbrev S32x50x1 : Shape := ⟨3, ![32, 50, 1]⟩
abbrev S32x50 : Shape := ⟨2, ![32, 50]⟩
abbrev S32x1x50 : Shape := ⟨3, ![32, 1, 50]⟩
abbrev S32x22743x80 : Shape := ⟨3, ![32, 22743, 80]⟩

abbrev nBuf : Space → Nat
  | .hbm => 76
  | .vmem => 0
  | .smem => 0
  | _ => 0

abbrev bufTy : (tb : Table) → Fin (tcTables nBuf tb) → BufTy
  | .hbm, ⟨0, _⟩ => ⟨S32x22743x4, .f32⟩
  | .hbm, ⟨1, _⟩ => ⟨S32x50x4, .f32⟩
  | .hbm, ⟨2, _⟩ => ⟨S32x22743x2, .f32⟩
  | .hbm, ⟨3, _⟩ => ⟨S32x22743x1x2, .f32⟩
  | .hbm, ⟨4, _⟩ => ⟨S32x50x2, .f32⟩
  | .hbm, ⟨5, _⟩ => ⟨S32x1x50x2, .f32⟩
  | .hbm, ⟨6, _⟩ => ⟨S32x22743x50x2, .f32⟩
  | .hbm, ⟨7, _⟩ => ⟨S32x22743x50x2, .f32⟩
  | .hbm, ⟨8, _⟩ => ⟨S32x22743x50x2, .f32⟩
  | .hbm, ⟨9, _⟩ => ⟨S32x22743x2, .f32⟩
  | .hbm, ⟨10, _⟩ => ⟨S32x22743x1x2, .f32⟩
  | .hbm, ⟨11, _⟩ => ⟨S32x50x2, .f32⟩
  | .hbm, ⟨12, _⟩ => ⟨S32x1x50x2, .f32⟩
  | .hbm, ⟨13, _⟩ => ⟨S32x22743x50x2, .f32⟩
  | .hbm, ⟨14, _⟩ => ⟨S32x22743x50x2, .f32⟩
  | .hbm, ⟨15, _⟩ => ⟨S32x22743x50x2, .f32⟩
  | .hbm, ⟨16, _⟩ => ⟨S32x22743x50x2, .f32⟩
  | .hbm, ⟨17, _⟩ => ⟨S_, .f32⟩
  | .hbm, ⟨18, _⟩ => ⟨S_, .f32⟩
  | .hbm, ⟨19, _⟩ => ⟨S32x22743x50x2, .f32⟩
  | .hbm, ⟨20, _⟩ => ⟨S32x22743x50x2, .f32⟩
  | .hbm, ⟨21, _⟩ => ⟨S32x22743x50x1, .f32⟩
  | .hbm, ⟨22, _⟩ => ⟨S32x22743x50, .f32⟩
  | .hbm, ⟨23, _⟩ => ⟨S32x22743x50x1, .f32⟩
  | .hbm, ⟨24, _⟩ => ⟨S32x22743x50, .f32⟩
  | .hbm, ⟨25, _⟩ => ⟨S32x22743x50, .f32⟩
  | .hbm, ⟨26, _⟩ => ⟨S32x22743x1, .f32⟩
  | .hbm, ⟨27, _⟩ => ⟨S32x22743, .f32⟩
  | .hbm, ⟨28, _⟩ => ⟨S32x22743x1, .f32⟩
  | .hbm, ⟨29, _⟩ => ⟨S32x22743, .f32⟩
  | .hbm, ⟨30, _⟩ => ⟨S32x22743, .f32⟩
  | .hbm, ⟨31, _⟩ => ⟨S32x22743x1, .f32⟩
  | .hbm, ⟨32, _⟩ => ⟨S32x22743, .f32⟩
  | .hbm, ⟨33, _⟩ => ⟨S32x22743x1, .f32⟩
  | .hbm, ⟨34, _⟩ => ⟨S32x22743, .f32⟩
  | .hbm, ⟨35, _⟩ => ⟨S32x22743, .f32⟩
  | .hbm, ⟨36, _⟩ => ⟨S32x22743, .f32⟩
  | .hbm, ⟨37, _⟩ => ⟨S32x50x1, .f32⟩
  | .hbm, ⟨38, _⟩ => ⟨S32x50, .f32⟩
  | .hbm, ⟨39, _⟩ => ⟨S32x50x1, .f32⟩
  | .hbm, ⟨40, _⟩ => ⟨S32x50, .f32⟩
  | .hbm, ⟨41, _⟩ => ⟨S32x50, .f32⟩
  | .hbm, ⟨42, _⟩ => ⟨S32x50x1, .f32⟩
  | .hbm, ⟨43, _⟩ => ⟨S32x50, .f32⟩
  | .hbm, ⟨44, _⟩ => ⟨S32x50x1, .f32⟩
  | .hbm, ⟨45, _⟩ => ⟨S32x50, .f32⟩
  | .hbm, ⟨46, _⟩ => ⟨S32x50, .f32⟩
  | .hbm, ⟨47, _⟩ => ⟨S32x50, .f32⟩
  | .hbm, ⟨48, _⟩ => ⟨S32x22743x1, .f32⟩
  | .hbm, ⟨49, _⟩ => ⟨S32x1x50, .f32⟩
  | .hbm, ⟨50, _⟩ => ⟨S32x22743x50, .f32⟩
  | .hbm, ⟨51, _⟩ => ⟨S32x22743x50, .f32⟩
  | .hbm, ⟨52, _⟩ => ⟨S32x22743x50, .f32⟩
  | .hbm, ⟨53, _⟩ => ⟨S32x22743x50, .f32⟩
  | .hbm, ⟨54, _⟩ => ⟨S_, .f32⟩
  | .hbm, ⟨55, _⟩ => ⟨S32x22743x50, .f32⟩
  | .hbm, ⟨56, _⟩ => ⟨S32x22743x50, .f32⟩
  | .hbm, ⟨57, _⟩ => ⟨S32x22743x50, .f32⟩
  | .hbm, ⟨58, _⟩ => ⟨S_, .f32⟩
  | .hbm, ⟨59, _⟩ => ⟨S32x22743, .f32⟩
  | .hbm, ⟨60, _⟩ => ⟨S32x22743x1, .f32⟩
  | .hbm, ⟨61, _⟩ => ⟨S_, .f32⟩
  | .hbm, ⟨62, _⟩ => ⟨S32x22743x1, .f32⟩
  | .hbm, ⟨63, _⟩ => ⟨S32x22743x1, .i1⟩
  | .hbm, ⟨64, _⟩ => ⟨S32x22743x1, .f32⟩
  | .hbm, ⟨65, _⟩ => ⟨S_, .f32⟩
  | .hbm, ⟨66, _⟩ => ⟨S32x22743x1, .f32⟩
  | .hbm, ⟨67, _⟩ => ⟨S32x22743x1, .f32⟩
  | .hbm, ⟨68, _⟩ => ⟨S_, .f32⟩
  | .hbm, ⟨69, _⟩ => ⟨S32x22743x2, .f32⟩
  | .hbm, ⟨70, _⟩ => ⟨S_, .f32⟩
  | .hbm, ⟨71, _⟩ => ⟨S32x22743x2, .f32⟩
  | .hbm, ⟨72, _⟩ => ⟨S_, .f32⟩
  | .hbm, ⟨73, _⟩ => ⟨S32x22743x2, .f32⟩
  | .hbm, ⟨74, _⟩ => ⟨S_, .f32⟩
  | .hbm, ⟨75, _⟩ => ⟨S32x22743x80, .f32⟩
  | _, _ => ⟨S32x22743x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_0 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_1 : Ref sig .tc := ⟨.hbm, 58, rfl⟩
abbrev main_v52 : Ref sig .tc := ⟨.hbm, 59, rfl⟩
abbrev main_v53 : Ref sig .tc := ⟨.hbm, 60, rfl⟩
abbrev main_cst_2 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_cst_4 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_cst_6 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩

abbrev nD : Nat := 1
abbrev τ : Topo := Topo.v7x

variable {F : FTy → Type} [FloatOps F]

class Facts₀ : Prop where
  slices_S32x22743x4_S32x22743x2_0_0_0 : S32x22743x4.Slices ![0, 0, 0] S32x22743x2
  bcast_S32x22743x2_S32x22743x1x2_0_1_3 : S32x22743x2.BroadcastsInDim S32x22743x1x2 (![0, 1, 3] : Fin 3 → Fin S32x22743x1x2.rank)
  slices_S32x50x4_S32x50x2_0_0_0 : S32x50x4.Slices ![0, 0, 0] S32x50x2
  bcast_S32x50x2_S32x1x50x2_0_2_3 : S32x50x2.BroadcastsInDim S32x1x50x2 (![0, 2, 3] : Fin 3 → Fin S32x1x50x2.rank)
  bcast_S32x22743x1x2_S32x22743x50x2_0_1_2_3 : S32x22743x1x2.BroadcastsInDim S32x22743x50x2 (![0, 1, 2, 3] : Fin 4 → Fin S32x22743x50x2.rank)
  bcast_S32x1x50x2_S32x22743x50x2_0_1_2_3 : S32x1x50x2.BroadcastsInDim S32x22743x50x2 (![0, 1, 2, 3] : Fin 4 → Fin S32x22743x50x2.rank)
  slices_S32x22743x4_S32x22743x2_0_0_2 : S32x22743x4.Slices ![0, 0, 2] S32x22743x2
  slices_S32x50x4_S32x50x2_0_0_2 : S32x50x4.Slices ![0, 0, 2] S32x50x2
  bcast_S_S32x22743x50x2 : S_.BroadcastsInDim S32x22743x50x2 (![] : Fin 0 → Fin S32x22743x50x2.rank)
  slices_S32x22743x50x2_S32x22743x50x1_0_0_0_0 : S32x22743x50x2.Slices ![0, 0, 0, 0] S32x22743x50x1
  shapeCasts_S32x22743x50x1_S32x22743x50 : S32x22743x50x1.ShapeCasts S32x22743x50
  slices_S32x22743x50x2_S32x22743x50x1_0_0_0_1 : S32x22743x50x2.Slices ![0, 0, 0, 1] S32x22743x50x1
  slices_S32x22743x4_S32x22743x1_0_0_2 : S32x22743x4.Slices ![0, 0, 2] S32x22743x1
  shapeCasts_S32x22743x1_S32x22743 : S32x22743x1.ShapeCasts S32x22743
  slices_S32x22743x4_S32x22743x1_0_0_0 : S32x22743x4.Slices ![0, 0, 0] S32x22743x1
  slices_S32x22743x4_S32x22743x1_0_0_3 : S32x22743x4.Slices ![0, 0, 3] S32x22743x1
  slices_S32x22743x4_S32x22743x1_0_0_1 : S32x22743x4.Slices ![0, 0, 1] S32x22743x1
  slices_S32x50x4_S32x50x1_0_0_2 : S32x50x4.Slices ![0, 0, 2] S32x50x1
  shapeCasts_S32x50x1_S32x50 : S32x50x1.ShapeCasts S32x50
  slices_S32x50x4_S32x50x1_0_0_0 : S32x50x4.Slices ![0, 0, 0] S32x50x1
  slices_S32x50x4_S32x50x1_0_0_3 : S32x50x4.Slices ![0, 0, 3] S32x50x1
  slices_S32x50x4_S32x50x1_0_0_1 : S32x50x4.Slices ![0, 0, 1] S32x50x1
  bcast_S32x22743_S32x22743x1_0_1 : S32x22743.BroadcastsInDim S32x22743x1 (![0, 1] : Fin 2 → Fin S32x22743x1.rank)
  bcast_S32x50_S32x1x50_0_2 : S32x50.BroadcastsInDim S32x1x50 (![0, 2] : Fin 2 → Fin S32x1x50.rank)
  bcast_S32x22743x1_S32x22743x50_0_1_2 : S32x22743x1.BroadcastsInDim S32x22743x50 (![0, 1, 2] : Fin 3 → Fin S32x22743x50.rank)
  bcast_S32x1x50_S32x22743x50_0_1_2 : S32x1x50.BroadcastsInDim S32x22743x50 (![0, 1, 2] : Fin 3 → Fin S32x22743x50.rank)
  bcast_S_S32x22743x50 : S_.BroadcastsInDim S32x22743x50 (![] : Fin 0 → Fin S32x22743x50.rank)
  reducesTo_S32x22743x50_S32x22743_d2 : S32x22743x50.ReducesTo [2] S32x22743
  h_S_ : 0 < S_.numel
  bcast_S_S32x22743x1 : S_.BroadcastsInDim S32x22743x1 (![] : Fin 0 → Fin S32x22743x1.rank)
  bcast_S_S32x22743x2 : S_.BroadcastsInDim S32x22743x2 (![] : Fin 0 → Fin S32x22743x2.rank)
  bcast_S_S32x22743x80 : S_.BroadcastsInDim S32x22743x80 (![] : Fin 0 → Fin S32x22743x80.rank)

variable [Facts₀]

class Facts : Prop extends Facts₀ where

variable [Facts]
-- ==== Proof.Spec.lean ====
/-
  The mathematics both programs compute, stated once.

  For one predicted box (x1, y1, x2, y2) and one ground-truth box (g1, g2, g3, g4) the intersection-over-union is
      inter / max (area1 + area2 - inter) ε,
  inter = max (min x2 g3 - max x1 g1) 0 * max (min y2 g4 - max y1 g2) 0,  area1 = (x2 - x1) (y2 - y1),
  area2 = (g3 - g1) (g4 - g2).  The running maximum over the first m ground-truth boxes starts at -∞, and the
  objectness target is -1 where the maximum over all fifty exceeds 1/2 and 0 elsewhere.

  The same formulas are written twice: on whole vectors of any shape at any float instance (the form a lane-chunk of
  the kernel computes), and on extended reals (the form an entry of the result has); `accV_apply` and `objV_apply`
  say the first read at an index is the second.
-/
import Idealize.ShloMosaic.PureOps.Ideal
import Idealize.ShloMosaic.Lib.ValueIdx

noncomputable section

namespace Cert.Spec

open Idealize.ShloMosaic Idealize.ShloMosaic.ValueIdx

/-! ## On vectors, at any float instance -/

section Vector

variable {F : FTy → Type} [FloatOps F] {s : Shape}

/-- The area of the intersection of every box of a vector with one ground-truth box. -/
def interV (x1 y1 x2 y2 : FVec F s .f32) (g1 g2 g3 g4 : F .f32) : FVec F s .f32 :=
  mulf
    (maximumf (subf (minimumf x2 (broadcast s g3)) (maximumf x1 (broadcast s g1)))
      (broadcast s (Scalar.ofBits .f32 0x00000000#32)))
    (maximumf (subf (minimumf y2 (broadcast s g4)) (maximumf y1 (broadcast s g2)))
      (broadcast s (Scalar.ofBits .f32 0x00000000#32)))

/-- Intersection over union of every box of a vector (areas `a1`) with one ground-truth box. -/
def iouV (x1 y1 x2 y2 a1 : FVec F s .f32) (g1 g2 g3 g4 : F .f32) : FVec F s .f32 :=
  divf (interV x1 y1 x2 y2 g1 g2 g3 g4)
    (maximumf
      (subf (addf a1 (broadcast s (Scalar.mulf (Scalar.subf g3 g1) (Scalar.subf g4 g2))))
        (interV x1 y1 x2 y2 g1 g2 g3 g4))
      (broadcast s (Scalar.ofBits .f32 0x358637BD#32)))

/-- The running maximum of the overlaps with the first `m` ground-truth boxes, from -∞. -/
def accV (x1 y1 x2 y2 a1 : FVec F s .f32) (g : ℕ → ℕ → F .f32) : ℕ → FVec F s .f32
  | 0 => broadcast s (Scalar.ofBits .f32 0xFF800000#32)
  | m + 1 => maximumf (accV x1 y1 x2 y2 a1 g m) (iouV x1 y1 x2 y2 a1 (g m 0) (g m 1) (g m 2) (g m 3))

/-- The objectness target of every box of a vector against fifty ground-truth boxes. -/
def objV (x1 y1 x2 y2 : FVec F s .f32) (g : ℕ → ℕ → F .f32) : FVec F s .f32 :=
  select
    (cmpf .ogt (accV x1 y1 x2 y2 (mulf (subf x2 x1) (subf y2 y1)) g 50)
      (broadcast s (Scalar.ofBits .f32 0x3F000000#32)))
    (broadcast s (Scalar.ofBits .f32 0xBF800000#32))
    (broadcast s (Scalar.ofBits .f32 0x00000000#32))

end Vector

/-! ## On extended reals -/

/-- The intersection area of two boxes. -/
def inter (x1 y1 x2 y2 g1 g2 g3 g4 : EReal) : EReal :=
  max (min x2 g3 - max x1 g1) (Ideal.ofBits .f32 0x00000000#32)
    * max (min y2 g4 - max y1 g2) (Ideal.ofBits .f32 0x00000000#32)

/-- Intersection over union of a box of area `a1` with a ground-truth box. -/
def iou (x1 y1 x2 y2 a1 g1 g2 g3 g4 : EReal) : EReal :=
  Ideal.div (inter x1 y1 x2 y2 g1 g2 g3 g4)
    (max (a1 + (g3 - g1) * (g4 - g2) - inter x1 y1 x2 y2 g1 g2 g3 g4) (Ideal.ofBits .f32 0x358637BD#32))

/-- The running maximum over the first `m` ground-truth boxes, from -∞. -/
def acc (x1 y1 x2 y2 a1 : EReal) (g : ℕ → ℕ → EReal) : ℕ → EReal
  | 0 => Ideal.ofBits .f32 0xFF800000#32
  | m + 1 => max (acc x1 y1 x2 y2 a1 g m) (iou x1 y1 x2 y2 a1 (g m 0) (g m 1) (g m 2) (g m 3))

/-- The best overlap of a box with the fifty ground-truth boxes. -/
def best (x1 y1 x2 y2 : EReal) (g : ℕ → ℕ → EReal) : EReal :=
  acc x1 y1 x2 y2 ((x2 - x1) * (y2 - y1)) g 50

/-- The objectness target: -1 where the best overlap exceeds 1/2, else 0. -/
def obj (x1 y1 x2 y2 : EReal) (g : ℕ → ℕ → EReal) : EReal :=
  Scalar.select (Ideal.cmp .ogt (best x1 y1 x2 y2 g) (Ideal.ofBits .f32 0x3F000000#32))
    (Ideal.ofBits .f32 0xBF800000#32) (Ideal.ofBits .f32 0x00000000#32)

/-! ## The vector forms read at an index -/

section Apply

variable {s : Shape}

theorem interV_apply (x1 y1 x2 y2 : FVec Ideal s .f32) (g1 g2 g3 g4 : EReal) (j : s.Idx) :
    interV x1 y1 x2 y2 g1 g2 g3 g4 j = inter (x1 j) (y1 j) (x2 j) (y2 j) g1 g2 g3 g4 := rfl

theorem iouV_apply (x1 y1 x2 y2 a1 : FVec Ideal s .f32) (g1 g2 g3 g4 : EReal) (j : s.Idx) :
    iouV x1 y1 x2 y2 a1 g1 g2 g3 g4 j = iou (x1 j) (y1 j) (x2 j) (y2 j) (a1 j) g1 g2 g3 g4 := rfl

theorem accV_apply (x1 y1 x2 y2 a1 : FVec Ideal s .f32) (g : ℕ → ℕ → EReal) (m : ℕ) (j : s.Idx) :
    accV x1 y1 x2 y2 a1 g m j = acc (x1 j) (y1 j) (x2 j) (y2 j) (a1 j) g m := by
  induction m with
  | zero => rfl
  | succ m ih =>
    show max (accV x1 y1 x2 y2 a1 g m j) (iouV x1 y1 x2 y2 a1 (g m 0) (g m 1) (g m 2) (g m 3) j) = _
    rw [ih, iouV_apply]; rfl

theorem objV_apply (x1 y1 x2 y2 : FVec Ideal s .f32) (g : ℕ → ℕ → EReal) (j : s.Idx) :
    objV x1 y1 x2 y2 g j = obj (x1 j) (y1 j) (x2 j) (y2 j) g := by
  show Scalar.select (Ideal.cmp .ogt (accV x1 y1 x2 y2 (mulf (subf x2 x1) (subf y2 y1)) g 50 j) _) _ _ = _
  rw [accV_apply]; rfl

end Apply

/-! ## The whole result -/

/-- Coordinate `c` of ground-truth box `m` of batch element `b` (zero outside the table, where it is never read). -/
def gtOf (gt : FVec Ideal (⟨3, ![32, 50, 4]⟩ : Shape) .f32) (b : Fin 32) (m c : ℕ) : EReal :=
  if h : m < 50 ∧ c < 4 then gt (ix3 b ⟨m, h.1⟩ ⟨c, h.2⟩) else Ideal.ofBits .f32 0x00000000#32

/-- The objectness targets of all boxes of all batch elements: entry (b, n, 0) is the target of box n of batch
    element b against that element's fifty ground-truth boxes. -/
def G (box : FVec Ideal (⟨3, ![32, 22743, 4]⟩ : Shape) .f32) (gt : FVec Ideal (⟨3, ![32, 50, 4]⟩ : Shape) .f32) :
    FVec Ideal (⟨3, ![32, 22743, 1]⟩ : Shape) .f32 :=
  fun i =>
    obj (box (ix3 ⟨(i 0).val, (i 0).isLt⟩ ⟨(i 1).val, (i 1).isLt⟩ (0 : Fin 4)))
      (box (ix3 ⟨(i 0).val, (i 0).isLt⟩ ⟨(i 1).val, (i 1).isLt⟩ (1 : Fin 4)))
      (box (ix3 ⟨(i 0).val, (i 0).isLt⟩ ⟨(i 1).val, (i 1).isLt⟩ (2 : Fin 4)))
      (box (ix3 ⟨(i 0).val, (i 0).isLt⟩ ⟨(i 1).val, (i 1).isLt⟩ (3 : Fin 4)))
      (gtOf gt ⟨(i 0).val, (i 0).isLt⟩)

end Cert.Spec

end
-- ==== Proof.TripPiece.lean ====
/-
  One trip of the kernel body's lane-chunk loop.

  Trip k loads rows 0..3 of the transposed boxes at lanes [2048 k, 2048 k + 2048) — x1, y1, x2, y2 of 2048 boxes —,
  then for each of the fifty ground-truth boxes in turn loads its four coordinates, forms the intersection over
  union with every box of the chunk and folds it into a running maximum that starts at -∞; it stores, at the same
  lanes of the output row, -1 where the maximum exceeds 1/2 and 0 elsewhere.  The program spells the fifty steps
  out one after another; here they are the recursion `Cert.Spec.accV`, and the trip's one stored piece is
  `Cert.Spec.objV` of the four loaded rows and the table of loaded ground-truth coordinates.
-/
import proofs.«140048_j59227599012160_2_alg».proof.Proof.Gen.KernelIdeal.Frame
import proofs.«140048_j59227599012160_2_alg».proof.Proof.Spec

set_option maxRecDepth 65536

noncomputable section

namespace Cert.KernelIdeal.Trip

open Idealize.ShloMosaic Idealize.ShloMosaic.TcCoe Idealize.ShloMosaic.Tactic
open Idealize.SL Idealize.SL.Sem
open Cert.KernelIdeal Cert.KernelIdeal.Gen

variable {F : FTy → Type} [FloatOps F]

/-- A single entry (0, m, c) of the 1×50×4 ground-truth block lies inside it. -/
theorem gt_inb {m c : ℕ} (h : m < 50 ∧ c < 4) :
    ∀ a, (![0, m, c] : Fin 3 → Nat) a + S1x1x1.size a ≤ S1x50x4.size a := by
  intro a
  match a with
  | ⟨0, _⟩ => show 0 + 1 ≤ 1; omega
  | ⟨1, _⟩ => show m + 1 ≤ 50; omega
  | ⟨2, _⟩ => show c + 1 ≤ 4; omega

/-- Coordinate `c` of ground-truth box `m`, as the body loads it from the block's buffer (zero outside the table,
    where nothing reads it). -/
def gtLd (arg2 : Memref sig .tc .vmem S1x50x4 .f32) (X_arg2 : BufTy.Contents (Elt F) arg2.view.ty) (m c : ℕ) : F .f32 :=
  if h : m < 50 ∧ c < 4 then
    extractAt ![0, 0, 0]
      (View.readAt (Elt F) arg2.view (Rect.unit (s := S1x50x4) ![0, m, c] S1x1x1.size (gt_inb h)).toLoadRect X_arg2)
      inpos_S1x1x1_p0_0_0
  else Scalar.ofBits .f32 0x00000000#32

/-- 2048 lanes of one row of the transposed boxes, at the offsets `off`, as the body loads them. -/
def rowLd (arg1 : Memref sig .tc .vmem S1x4x24576 .f32) (X_arg1 : BufTy.Contents (Elt F) arg1.view.ty)
    (off : Fin 3 → ℕ) (h : ∀ a, off a + S1x1x2048.size a ≤ S1x4x24576.size a) : FVec F S2048 .f32 :=
  shapeCast S2048
    (View.readAt (Elt F) arg1.view (Rect.unit (s := S1x4x24576) off S1x1x2048.size h).toLoadRect X_arg1)
    shapeCasts_S1x1x2048_S2048

/-- What trip `k` stores: the objectness targets of its 2048 boxes. -/
def chunk (arg1 : Memref sig .tc .vmem S1x4x24576 .f32) (arg2 : Memref sig .tc .vmem S1x50x4 .f32)
    (X_arg1 : BufTy.Contents (Elt F) arg1.view.ty) (X_arg2 : BufTy.Contents (Elt F) arg2.view.ty)
    (k : Fin k0_t1_loop.trips) : FVec F S1x1x2048 .f32 :=
  shapeCast S1x1x2048
    (Cert.Spec.objV (rowLd arg1 X_arg1 (k0_off1 k) (k0_off1_inb k)) (rowLd arg1 X_arg1 (k0_off2 k) (k0_off2_inb k))
      (rowLd arg1 X_arg1 (k0_off3 k) (k0_off3_inb k)) (rowLd arg1 X_arg1 (k0_off4 k) (k0_off4_inb k))
      (gtLd arg2 X_arg2))
    shapeCasts_S2048_S1x1x2048

/-- The trip writes exactly one piece: `chunk` at lanes [2048 k, 2048 k + 2048) of the output row.  The fifty
    spelled-out steps of the body and the recursion are the same term, step for step. -/
theorem tripL_eq (𝒱 : Variants) (c : Dev nD) (bd : Option 𝒱.V) (i : grid0.Coords)
    (arg1 : Memref sig .tc .vmem S1x4x24576 .f32) (harg1 : arg1.IsWhole)
    (arg2 : Memref sig .tc .vmem S1x50x4 .f32) (harg2 : arg2.IsWhole)
    (arg3 : Memref sig .tc .vmem S1x1x24576 .f32) (harg3 : arg3.IsWhole)
    (X_arg1 : BufTy.Contents (Elt F) arg1.view.ty) (X_arg2 : BufTy.Contents (Elt F) arg2.view.ty)
    (k : Fin k0_t1_loop.trips) :
    tripL_k0_t1 (F := F) 𝒱 c bd i arg1 harg1 arg2 harg2 arg3 harg3 X_arg1 X_arg2 k
      = [⟨Rect.unit (s := S1x1x24576) (k0_off5 k) S1x1x2048.size (k0_off5_inb k),
          chunk arg1 arg2 X_arg1 X_arg2 k⟩] := by
  unfold tripL_k0_t1 trip_k0_t1
  dsimp only
  sl_unfold_run_names
  rfl

end Cert.KernelIdeal.Trip

end
-- ==== Proof.Block.lean ====
/-
  What one grid point leaves in the output block.

  The body's twelve trips write the twelve lane-chunks of the 1×1×24576 output row; trip k's chunk holds, at lane j,
  the objectness target of the box whose coordinates sit at lane 2048 k + j of rows 0..3 of the point's 1×4×24576
  block of transposed boxes, against the point's 1×50×4 block of ground-truth boxes.  So the whole row is ONE function of
  the lane: entry (0, 0, n) is `Cert.Spec.obj` of the four coordinates at lane n and the ground-truth table.  Every
  trip's piece is a tile of that function, and the twelve tiles cover the row.
-/
import proofs.«140048_j59227599012160_2_alg».proof.Proof.TripPiece
import Idealize.ShloMosaic.Lib.Pipeline.Value
import Idealize.ShloMosaic.Lib.WholeRead

set_option maxRecDepth 65536

noncomputable section

namespace Cert.KernelIdeal.Block

open Idealize.ShloMosaic Idealize.ShloMosaic.TcCoe Idealize.ShloMosaic.Tactic Idealize.ShloMosaic.ValueIdx
open Idealize.SL Idealize.SL.Sem
open Cert.KernelIdeal Cert.KernelIdeal.Gen

/-- The ground-truth table of a 1×50×4 block as a function of (box, coordinate), zero outside the table. -/
def gtTab (x1 : Vec Ideal S1x50x4 .f32) (m c : ℕ) : EReal :=
  if h : m < 50 ∧ c < 4 then x1 (ix3 (0 : Fin 1) ⟨m, h.1⟩ ⟨c, h.2⟩) else Ideal.ofBits .f32 0x00000000#32

/-- The loop makes at most twelve trips. -/
theorem trips_lt (k : Fin k0_t1_loop.trips) : k.val < 12 := Nat.lt_of_lt_of_le k.isLt k0_t1_abs.2.1

/-- A row load of a lane-chunk, read at a lane: row `r` of the block at lane `o + j`. -/
theorem rowLd_apply (arg1 : Memref sig .tc .vmem S1x4x24576 .f32) (harg1 : arg1.IsWhole) (x0 : Vec Ideal S1x4x24576 .f32)
    (off : Fin 3 → ℕ) (h : ∀ a, off a + S1x1x2048.size a ≤ S1x4x24576.size a) (r : Fin 4) (o : ℕ)
    (hoff : off = ![0, r.val, o]) (j : Fin 2048) (hlt : o + j.val < 24576) :
    Trip.rowLd (F := Ideal) arg1 (harg1.unread x0) off h (ix1 j) = x0 (ix3 (0 : Fin 1) r ⟨o + j.val, hlt⟩) := by
  unfold Trip.rowLd
  rw [shapeCast_apply _ shapeCasts_S1x1x2048_S2048 (ix1 j) (ix3 (0 : Fin 1) (0 : Fin 1) j) (by
    rw [Shape.rowMajor_val_three, Shape.rowMajor_val_one]; show (0 * 1 + 0) * 2048 + j.val = j.val; omega)]
  rw [Memref.IsWhole.readAt_unread harg1 x0]
  refine congrArg x0 (funext fun a => Fin.ext ?_)
  subst hoff
  match a with
  | ⟨0, _⟩ => show 0 + 1 * 0 = 0; omega
  | ⟨1, _⟩ => show r.val + 1 * 0 = r.val; omega
  | ⟨2, _⟩ => show o + 1 * j.val = o + j.val; omega

/-- The ground-truth coordinates the body loads are the block's table. -/
theorem gtLd_eq (arg2 : Memref sig .tc .vmem S1x50x4 .f32) (harg2 : arg2.IsWhole) (x1 : Vec Ideal S1x50x4 .f32) :
    Trip.gtLd (F := Ideal) arg2 (harg2.unread x1) = gtTab x1 := by
  funext m c
  unfold Trip.gtLd gtTab
  by_cases h : m < 50 ∧ c < 4
  · rw [dif_pos h, dif_pos h]
    unfold extractAt
    rw [Memref.IsWhole.readAt_unread harg2 x1]
    refine congrArg x1 (funext fun a => Fin.ext ?_)
    match a with
    | ⟨0, _⟩ => show 0 + 1 * 0 = 0; omega
    | ⟨1, _⟩ => show m + 1 * 0 = m; omega
    | ⟨2, _⟩ => show c + 1 * 0 = c; omega
  · rw [dif_neg h, dif_neg h]; rfl

/-- The row as ONE function of the lane. -/
def rowFn (x0 : Vec Ideal S1x4x24576 .f32) (x1 : Vec Ideal S1x50x4 .f32) (y : S1x1x24576.Idx) : EReal :=
  Cert.Spec.obj (x0 (ix3 (0 : Fin 1) (0 : Fin 4) ⟨(y 2).val, (y 2).isLt⟩))
    (x0 (ix3 (0 : Fin 1) (1 : Fin 4) ⟨(y 2).val, (y 2).isLt⟩))
    (x0 (ix3 (0 : Fin 1) (2 : Fin 4) ⟨(y 2).val, (y 2).isLt⟩))
    (x0 (ix3 (0 : Fin 1) (3 : Fin 4) ⟨(y 2).val, (y 2).isLt⟩))
    (gtTab x1)

/-- Trip `k`'s chunk is the row function on lanes [2048 k, 2048 k + 2048). -/
theorem chunk_apply (arg1 : Memref sig .tc .vmem S1x4x24576 .f32) (harg1 : arg1.IsWhole)
    (arg2 : Memref sig .tc .vmem S1x50x4 .f32) (harg2 : arg2.IsWhole)
    (x0 : Vec Ideal S1x4x24576 .f32) (x1 : Vec Ideal S1x50x4 .f32) (k : Fin k0_t1_loop.trips)
    (x : (Rect.unit (s := S1x1x24576) (k0_off5 k) S1x1x2048.size (k0_off5_inb k)).shape.Idx) :
    Trip.chunk (F := Ideal) arg1 arg2 (harg1.unread x0) (harg2.unread x1) k x
      = rowFn x0 x1 ((Rect.unit (s := S1x1x24576) (k0_off5 k) S1x1x2048.size (k0_off5_inb k)).emb x) := by
  have hk := trips_lt k
  have hx : (x 2).val < 2048 := (x 2).isLt
  have hlt : 2048 * k.val + (x 2).val < 24576 := by omega
  have he : ((Rect.unit (s := S1x1x24576) (k0_off5 k) S1x1x2048.size (k0_off5_inb k)).emb x 2).val = 2048 * k.val + (x 2).val := by
    have h5 := congrFun (k0_off5_eq k) 2
    show k0_off5 k 2 + 1 * (x 2).val = _
    rw [h5]; show 2048 * k.val + 1 * (x 2).val = _; omega
  unfold Trip.chunk rowFn
  rw [shapeCast_apply _ shapeCasts_S2048_S1x1x2048 x (ix1 (⟨(x 2).val, hx⟩ : Fin 2048)) (by
    rw [Shape.rowMajor_val_three, Shape.rowMajor_val_one]
    have h0 : (x 0).val = 0 := by have h : (x 0).val < 1 := (x 0).isLt; omega
    have h1 : (x 1).val = 0 := by have h : (x 1).val < 1 := (x 1).isLt; omega
    show (x 2).val = ((x 0).val * 1 + (x 1).val) * 2048 + (x 2).val
    rw [h0, h1]; omega)]
  rw [Cert.Spec.objV_apply, gtLd_eq,
    rowLd_apply arg1 harg1 x0 _ _ (0 : Fin 4) (2048 * k.val) (k0_off1_eq k) (⟨(x 2).val, hx⟩ : Fin 2048) hlt,
    rowLd_apply arg1 harg1 x0 _ _ (1 : Fin 4) (2048 * k.val) (k0_off2_eq k) (⟨(x 2).val, hx⟩ : Fin 2048) hlt,
    rowLd_apply arg1 harg1 x0 _ _ (2 : Fin 4) (2048 * k.val) (k0_off3_eq k) (⟨(x 2).val, hx⟩ : Fin 2048) hlt,
    rowLd_apply arg1 harg1 x0 _ _ (3 : Fin 4) (2048 * k.val) (k0_off4_eq k) (⟨(x 2).val, hx⟩ : Fin 2048) hlt]
  have hF : (⟨((Rect.unit (s := S1x1x24576) (k0_off5 k) S1x1x2048.size (k0_off5_inb k)).emb x 2).val,
      ((Rect.unit (s := S1x1x24576) (k0_off5 k) S1x1x2048.size (k0_off5_inb k)).emb x 2).isLt⟩ : Fin 24576)
      = ⟨2048 * k.val + (x 2).val, hlt⟩ := Fin.ext he
  rw [hF]

/-- A property of every piece of every trip holds of every piece of the trips before `n`. -/
theorem pb_forall (𝒱 : Variants) (c : Dev nD) (bd : Option 𝒱.V) (i : grid0.Coords)
    (arg1 : Memref sig .tc .vmem S1x4x24576 .f32) (harg1 : arg1.IsWhole)
    (arg2 : Memref sig .tc .vmem S1x50x4 .f32) (harg2 : arg2.IsWhole)
    (arg3 : Memref sig .tc .vmem S1x1x24576 .f32) (harg3 : arg3.IsWhole)
    (X1 : BufTy.Contents (Elt Ideal) arg1.view.ty) (X2 : BufTy.Contents (Elt Ideal) arg2.view.ty)
    (P : View.Piece (Elt Ideal) S1x1x24576 .f32 → Prop)
    (hP : ∀ k, ∀ p ∈ tripL_k0_t1 (F := Ideal) 𝒱 c bd i arg1 harg1 arg2 harg2 arg3 harg3 X1 X2 k, P p) :
    ∀ n, ∀ p ∈ pb_k0_t1 (F := Ideal) 𝒱 c bd i arg1 harg1 arg2 harg2 arg3 harg3 X1 X2 n, P p
  | 0 => by intro p hp; rw [pb_k0_t1.eq_1] at hp; exact absurd hp List.not_mem_nil
  | n + 1 => by
    intro p hp
    rw [pb_k0_t1.eq_2] at hp
    unfold pb_k0_t1Step at hp
    by_cases hn : n < k0_t1_loop.trips
    · rw [dif_pos hn] at hp
      rcases List.mem_append.mp hp with h | h
      · exact hP ⟨n, hn⟩ p h
      · exact pb_forall 𝒱 c bd i arg1 harg1 arg2 harg2 arg3 harg3 X1 X2 P hP n p h
    · rw [dif_neg hn] at hp
      exact pb_forall 𝒱 c bd i arg1 harg1 arg2 harg2 arg3 harg3 X1 X2 P hP n p hp

/-- The output row a grid point leaves, entry by entry. -/
theorem out_block (c : Dev nD) (i : grid0.Coords)
    (arg1 : Memref sig .tc .vmem S1x4x24576 .f32) (harg1 : arg1.IsWhole)
    (arg2 : Memref sig .tc .vmem S1x50x4 .f32) (harg2 : arg2.IsWhole)
    (arg3 : Memref sig .tc .vmem S1x1x24576 .f32) (harg3 : arg3.IsWhole)
    (x0 : Vec Ideal S1x4x24576 .f32) (x1 : Vec Ideal S1x50x4 .f32) (y : S1x1x24576.Idx) :
    out0_A_2 (F := Ideal) c i arg1 harg1 arg2 harg2 arg3 harg3 x0 x1 y
      = Cert.Spec.obj (x0 (ix3 (0 : Fin 1) (0 : Fin 4) ⟨(y 2).val, (y 2).isLt⟩))
          (x0 (ix3 (0 : Fin 1) (1 : Fin 4) ⟨(y 2).val, (y 2).isLt⟩))
          (x0 (ix3 (0 : Fin 1) (2 : Fin 4) ⟨(y 2).val, (y 2).isLt⟩))
          (x0 (ix3 (0 : Fin 1) (3 : Fin 4) ⟨(y 2).val, (y 2).isLt⟩))
          (gtTab x1) := by
  unfold out0_A_2
  rw [View.read_writes_junk_apply_eq_canon]
  refine View.canon_apply_of_pieces (rowFn x0 x1) _ ?_ y (cover0_A_2 c i arg1 harg1 arg2 harg2 arg3 harg3 x0 x1 y)
  unfold kernelRun0_A
  dsimp only
  refine pb_forall Variants.none c none i arg1 harg1 arg2 harg2 arg3 harg3 _ _ _ ?_ _
  intro k p hp
  rw [Trip.tripL_eq] at hp
  obtain rfl := List.mem_singleton.mp hp
  exact chunk_apply arg1 harg1 arg2 harg2 x0 x1 k

end Cert.KernelIdeal.Block

end
-- ==== Proof.HostPrefix.lean ====
/-
  The array of boxes as the kernel's grid finds it.

  Before the grid runs, the 32×22743×4 array of predicted boxes is padded with zeros along the box axis to 24576
  boxes and its last two axes are swapped, so that the box index runs along the lanes: entry (b, r, n) of the
  32×4×24576 result is coordinate r of box n of batch element b for n < 22743 (and the padding value past that,
  which no result entry depends on).
-/
import proofs.«140048_j59227599012160_2_alg».proof.Proof.Gen.KernelIdeal.Frame
import Idealize.ShloMosaic.Lib.ValueIdx
import Idealize.ShloMosaic.Lib.Pipeline.Value
import Idealize.ShloMosaic.Lib.StableHlo.Run

set_option maxRecDepth 65536

noncomputable section

namespace Cert.KernelIdeal.HostPrefix

open Idealize.ShloMosaic Idealize.ShloMosaic.TcCoe Idealize.ShloMosaic.Tactic Idealize.ShloMosaic.ValueIdx
open Idealize.SL Idealize.SL.Sem Idealize.ShloMosaic.StableHlo
open Cert.KernelIdeal Cert.KernelIdeal.Gen

/-- The boxes padded to 24576 along the box axis, then with the last two axes swapped. -/
def padT (x : S32x22743x4.Idx → EReal) : S32x4x24576.Idx → EReal :=
  transpose S32x4x24576 [0, 2, 1]
    (pad S32x24576x4 ![0, 0, 0] ![0, 1833, 0] ![0, 0, 0] x (sitofp (F := Ideal) .f32 (constantI S_ 32 0#32))
      pads_S32x22743x4_S32x24576x4_000_018330_000 h_S_)
    transposes_S32x24576x4_S32x4x24576_0_2_1

/-- The region finds the first window's array at the padded, transposed boxes. -/
theorem V_v1_eq (m : (ℓ : Loc nD τ sig) → Buf (Elt Ideal) ℓ) (c : Dev nD) :
    (V m c main_v1 : S32x4x24576.Idx → EReal) = padT (m ((c : Thread nD τ).loc main_arg0)) := by
  dsimp only [V, V0]
  simp only [hostOps0, hostOps0_1, hostOps0_2, List.flatten_cons, List.flatten_nil, List.append_nil, List.cons_append, List.nil_append]
  after_results
  rfl

/-- Inside the true extent the padded, transposed array holds the boxes' coordinates. -/
theorem padT_apply (x : S32x22743x4.Idx → EReal) (b : Fin 32) (r : Fin 4) (n : Fin 24576) (hn : n.val < 22743) :
    padT x (ix3 b r n) = x (ix3 b ⟨n.val, hn⟩ r) := by
  unfold padT
  rw [transpose_apply [0, 2, 1] _ transposes_S32x24576x4_S32x4x24576_0_2_1 (ix3 b r n) (ix3 b n r) (fun a => by
    match a with
    | ⟨0, _⟩ => rfl
    | ⟨1, _⟩ => rfl
    | ⟨2, _⟩ => rfl)]
  unfold pad
  have hin : ∀ a : Fin S32x22743x4.rank, (![0, 0, 0] : Fin 3 → ℕ) a ≤ ((ix3 b n r : S32x24576x4.Idx) (a.cast pads_S32x22743x4_S32x24576x4_000_018330_000.1)).val
      ∧ (((ix3 b n r : S32x24576x4.Idx) (a.cast pads_S32x22743x4_S32x24576x4_000_018330_000.1)).val - (![0, 0, 0] : Fin 3 → ℕ) a) % ((![0, 0, 0] : Fin 3 → ℕ) a + 1) = 0
      ∧ (((ix3 b n r : S32x24576x4.Idx) (a.cast pads_S32x22743x4_S32x24576x4_000_018330_000.1)).val - (![0, 0, 0] : Fin 3 → ℕ) a) / ((![0, 0, 0] : Fin 3 → ℕ) a + 1) < S32x22743x4.size a := by
    intro a
    match a with
    | ⟨0, _⟩ => exact ⟨Nat.zero_le _, by show (b.val - 0) % (0 + 1) = 0; omega, by show (b.val - 0) / (0 + 1) < 32; have := b.isLt; omega⟩
    | ⟨1, _⟩ => exact ⟨Nat.zero_le _, by show (n.val - 0) % (0 + 1) = 0; omega, by show (n.val - 0) / (0 + 1) < 22743; omega⟩
    | ⟨2, _⟩ => exact ⟨Nat.zero_le _, by show (r.val - 0) % (0 + 1) = 0; omega, by show (r.val - 0) / (0 + 1) < 4; have := r.isLt; omega⟩
  rw [dif_pos hin]
  refine congrArg x (funext fun a => Fin.ext ?_)
  match a with
  | ⟨0, _⟩ => show (b.val - 0) / (0 + 1) = b.val; omega
  | ⟨1, _⟩ => show (n.val - 0) / (0 + 1) = n.val; omega
  | ⟨2, _⟩ => show (r.val - 0) / (0 + 1) = r.val; omega

/-- Inside the true extent the transposed padded array holds the boxes' coordinates. -/
theorem V_boxes (m : (ℓ : Loc nD τ sig) → Buf (Elt Ideal) ℓ) (c : Dev nD) (b : Fin 32) (r : Fin 4) (n : Fin 24576)
    (hn : n.val < 22743) :
    (V m c main_v1 : S32x4x24576.Idx → EReal) (ix3 b r n)
      = (m ((c : Thread nD τ).loc main_arg0) : S32x22743x4.Idx → EReal) (ix3 b ⟨n.val, hn⟩ r) :=
  (congrFun (V_v1_eq m c) (ix3 b r n)).trans (padT_apply _ b r n hn)

end Cert.KernelIdeal.HostPrefix

end
-- ==== Proof.KernelArray.lean ====
/-
  From one grid point's output row to the whole output array.

  The grid has thirty-two points, one per batch element.  Point b reads row b of the 32×4×24576 array of transposed
  boxes (a 1×4×24576 block) and row b of the 32×50×4 ground-truth table (a 1×50×4 block), and writes row b of the
  32×1×24576 output array.  A block's coordinate in its array is always the block index times the block extent plus the
  coordinate inside the block; here the block index is (b, 0, 0) for all three windows, so entry (0, r, n) of a
  block is entry (b, r, n) of its array.

  Since each point's row is the objectness target of the four coordinates at a lane against that point's ground-truth
  table, the rows are the restrictions of ONE function of the two arrays, `rows`: entry (b, 0, n) is
  `Cert.Spec.obj` of the four coordinates (b, 0..3, n) and the table of batch element b.  The thirty-two rows tile the
  array (row b is point b's block), so the array ends holding `rows`.
-/
import proofs.«140048_j59227599012160_2_alg».proof.Proof.Block
import proofs.«140048_j59227599012160_2_alg».proof.Proof.HostPrefix
import Idealize.ShloMosaic.Lib.ValueIdx
import Idealize.ShloMosaic.Lib.Pipeline.Value
import Idealize.ShloMosaic.Lib.ValueLayout
import Idealize.ShloMosaic.Lib.StableHlo.Run

set_option maxRecDepth 65536

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen

/-- The output array as one function of the transposed boxes and the ground-truth table. -/
def rows (v1 : S32x4x24576.Idx → EReal) (gt : S32x50x4.Idx → EReal) : S32x1x24576.Idx → EReal :=
  fun i =>
    Cert.Spec.obj (v1 (ix3 ⟨(i 0).val, (i 0).isLt⟩ (0 : Fin 4) ⟨(i 2).val, (i 2).isLt⟩))
      (v1 (ix3 ⟨(i 0).val, (i 0).isLt⟩ (1 : Fin 4) ⟨(i 2).val, (i 2).isLt⟩))
      (v1 (ix3 ⟨(i 0).val, (i 0).isLt⟩ (2 : Fin 4) ⟨(i 2).val, (i 2).isLt⟩))
      (v1 (ix3 ⟨(i 0).val, (i 0).isLt⟩ (3 : Fin 4) ⟨(i 2).val, (i 2).isLt⟩))
      (Cert.Spec.gtOf gt ⟨(i 0).val, (i 0).isLt⟩)

/-- The three windows' block indices at point t are all (t, 0, 0): decided over the thirty-two points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The output array at an index whose batch and lane coordinates are named. -/
theorem rows_apply (v1 : S32x4x24576.Idx → EReal) (gt : S32x50x4.Idx → EReal) (i : S32x1x24576.Idx) (b : Fin 32)
    (n : Fin 24576) (hb : (i 0).val = b.val) (hn : (i 2).val = n.val) :
    rows v1 gt i = Cert.Spec.obj (v1 (ix3 b (0 : Fin 4) n)) (v1 (ix3 b (1 : Fin 4) n)) (v1 (ix3 b (2 : Fin 4) n))
      (v1 (ix3 b (3 : Fin 4) n)) (Cert.Spec.gtOf gt b) := by
  have eb : (⟨(i 0).val, (i 0).isLt⟩ : Fin 32) = b := Fin.ext hb
  have en : (⟨(i 2).val, (i 2).isLt⟩ : Fin 24576) = n := Fin.ext hn
  show Cert.Spec.obj (v1 (ix3 ⟨(i 0).val, (i 0).isLt⟩ (0 : Fin 4) ⟨(i 2).val, (i 2).isLt⟩)) _ _ _ _ = _
  rw [eb, en]

variable (m : (ℓ : Loc nD τ sig) → Buf (Elt Ideal) ℓ) (ρ : Dev nD → PrngReg)

/-- The output array of core c: `rows` of the transposed boxes and the ground-truth table as the grid finds them. -/
def rowsOf (c : Dev nD) : Buf (Elt Ideal) ((c : Thread nD τ).loc main_v2) :=
  rows (V m c main_v1) (V m c main_arg1)

/-- A block of the transposed boxes read at (0, r, n) is the array at (t, r, n). -/
theorem iblk0_apply (c : Dev nD) (t : Fin cfg0.N) (r : Fin 4) (n : Fin 24576) :
    iblk m c 0 t (ix3 (0 : Fin 1) r n) = V m c main_v1 (ix3 (⟨t.val, t.isLt⟩ : Fin 32) r n) := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 1 + 1 * 0 = t.val; omega
  | ⟨1, _⟩ => show win0_0.index t (1 : Fin 3) * 4 + 1 * r.val = r.val; omega
  | ⟨2, _⟩ => show win0_0.index t (2 : Fin 3) * 24576 + 1 * n.val = n.val; omega

/-- A block of the ground-truth table read at (0, k, r) is the table at (t, k, r). -/
theorem iblk1_apply (c : Dev nD) (t : Fin cfg0.N) (k : Fin 50) (r : Fin 4) :
    iblk m c 1 t (ix3 (0 : Fin 1) k r) = V m c main_arg1 (ix3 (⟨t.val, t.isLt⟩ : Fin 32) k r) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val; omega
  | ⟨1, _⟩ => show win0_1.index t (1 : Fin 3) * 50 + 1 * k.val = k.val; omega
  | ⟨2, _⟩ => show win0_1.index t (2 : Fin 3) * 4 + 1 * r.val = r.val; omega

/-- The table of a point's ground-truth block is the table of its batch element. -/
theorem gtTab_iblk (c : Dev nD) (t : Fin cfg0.N) :
    Block.gtTab (iblk m c 1 t) = Cert.Spec.gtOf (V m c main_arg1) (⟨t.val, t.isLt⟩ : Fin 32) := by
  funext k r
  unfold Block.gtTab Cert.Spec.gtOf
  split
  · exact iblk1_apply m c t _ _
  · rfl

/-- What point t writes back is block t of the whole output array. -/
theorem flushed_eq (c : Dev nD) (t : Fin cfg0.N) :
    (dats m 0 c).flushed 2 t = ((cfg0.win 2).blk t).view.read (Elt Ideal) (rowsOf m c) := by
  show (cfg0.win 2).cut (grid0.coords t) ((dats m 0 c).after 2 t) = _
  rw [after0_2]
  obtain ⟨-, -, -, -, -, -, e0, e1, e2⟩ := idx_facts t
  funext y
  rw [View.read_apply]
  show outsAt0 m c t y = _
  unfold outsAt0
  rw [Block.out_block, gtTab_iblk, iblk0_apply, iblk0_apply, iblk0_apply, iblk0_apply]
  show _ = rowsOf m c (((cfg0.win 2).blk t).view.emb y)
  unfold rowsOf
  have h0 : (y 0).val < 1 := (y 0).isLt
  refine (rows_apply _ _ _ (⟨t.val, t.isLt⟩ : Fin 32) (⟨(y 2).val, (y 2).isLt⟩ : Fin 24576) ?_ ?_).symm
  · show win0_2.index t (0 : Fin 3) * 1 + 1 * (y 0).val = t.val; omega
  · show win0_2.index t (2 : Fin 3) * 24576 + 1 * (y 2).val = (y 2).val; omega

/-- An index of the output array is in point t's block iff each coordinate is in the block's range on its axis. -/
theorem mem_blk (t : Fin cfg0.N) (i : S32x1x24576.Idx) :
    i ∈ ((cfg0.win 2).blk t).view.set ↔ ∀ a : Fin 3, win0_2.index t a * S1x1x24576.size a ≤ (i a).val
      ∧ (i a).val < win0_2.index t a * S1x1x24576.size a + S1x1x24576.size a := by
  show i ∈ ((View.whole main_v2).slice (win0_2.rect t)).set ↔ _
  rw [View.set_slice_whole, Rect.mem_set_unit]
  exact Iff.rfl

/-- Row b of the output array is point b's block: the thirty-two blocks tile the array. -/
theorem cover (i : S32x1x24576.Idx) :
    ∃ t : Fin cfg0.N, (cfg0.win 2).flush t = true ∧ i ∈ ((cfg0.win 2).blk t).view.set := by
  have hN : cfg0.N = 32 := N_0
  have h0 : (i 0).val < 32 := (i 0).isLt
  have h1 : (i 1).val < 1 := (i 1).isLt
  have h2 : (i 2).val < 24576 := (i 2).isLt
  refine ⟨⟨(i 0).val, by omega⟩, flush0_2 _, ?_⟩
  obtain ⟨-, -, -, -, -, -, e0, e1, e2⟩ := idx_facts ⟨(i 0).val, by omega⟩
  rw [mem_blk]
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 24576 ≤ (i 2).val ∧ (i 2).val < win0_2.index _ (2 : Fin 3) * 24576 + 24576; rw [e2]; omega

/-- The output array after the grid has run. -/
theorem final (c : Dev nD) : (dats m 0 c).arrAt 2 cfg0.N = rowsOf m c :=
  (dats m 0 c).arrAt_eq_of_cover 2 (rowsOf m c) (fun t _ => flushed_eq m c t) cover

end Cert.KernelIdeal.Hand
end
-- ==== Proof.KernelValue.lean ====
/-
  From the output array to the program's results.

  After the grid has run, the 32×1×24576 output array (`rows` of the transposed boxes and the ground-truth table) has
  its last two axes swapped, giving a 32×24576×1 array whose entry (b, n, 0) is entry (b, 0, n) of the rows, and is cut
  along the box axis to the first 22743 boxes.  Those are exactly the boxes that are not padding: for n < 22743 entry
  (b, r, n) of the transposed padded boxes is coordinate r of box n of batch element b of the argument, and the
  ground-truth table the grid reads is the argument itself.  So the first result is the specification's array
  `Cert.Spec.G` of the two arguments.  The four other results are broadcasts of one constant word each (three of the
  zero word, one of the word of -1), and no operation writes the arguments.
-/
import proofs.«140048_j59227599012160_2_alg».proof.Proof.KernelArray

set_option maxRecDepth 65536

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen

section Tail

variable (m : (ℓ : Loc nD τ sig) → Buf (Elt Ideal) ℓ)

/-- The rows with the lane axis moved to the middle and cut to the true number of boxes. -/
def tailOf (X : S32x1x24576.Idx → EReal) : S32x22743x1.Idx → EReal :=
  extractStridedSlice S32x22743x1 ![0, 0, 0]
    (transpose S32x24576x1 [0, 2, 1] X transposes_S32x1x24576_S32x24576x1_0_2_1) slices_S32x24576x1_S32x22743x1_0_0_0

/-- Entry (b, n, 0) of the result is entry (b, 0, n) of the rows. -/
theorem tailOf_apply (X : S32x1x24576.Idx → EReal) (i : S32x22743x1.Idx) (b : Fin 32) (n : Fin 24576)
    (hb : (i 0).val = b.val) (hn : (i 1).val = n.val) : tailOf X i = X (ix3 b (0 : Fin 1) n) := by
  have h2 : (i 2).val < 1 := (i 2).isLt
  unfold tailOf
  refine (extractStridedSlice_apply ![0, 0, 0] _ _ i (ix3 b n (0 : Fin 1)) ?_).trans ?_
  · intro a
    match a with
    | ⟨0, _⟩ => show b.val = 0 + (i 0).val; omega
    | ⟨1, _⟩ => show n.val = 0 + (i 1).val; omega
    | ⟨2, _⟩ => show 0 = 0 + (i 2).val; omega
  · refine transpose_apply [0, 2, 1] X _ (ix3 b n (0 : Fin 1)) (ix3 b (0 : Fin 1) n) ?_
    intro a
    match a with
    | ⟨0, _⟩ => rfl
    | ⟨1, _⟩ => rfl
    | ⟨2, _⟩ => rfl

/-- The first result after the operations that follow the grid. -/
theorem v4_tail (c : Dev nD) :
    Pipeline.afterTail₀ cfgs (dats m) 0 (V0 m) [hostOps1] c main_v4 = tailOf (rowsOf m c) := by
  unfold Pipeline.afterTail₀
  show StableHlo.after hostOps1 _ (Proc.devRef .tc main_v4) = _
  after_results
  exact congrArg tailOf ((Pipeline.withArrays_arr spec0 launch0.win.arr_inj c _ _ 2).trans (final m c))

/-- The four constant results: a broadcast of one word reads that word at every index. -/
theorem v5_tail (c : Dev nD) :
    Pipeline.afterTail₀ cfgs (dats m) 0 (V0 m) [hostOps1] c main_v5 = (fun _ => Ideal.ofBits .f32 0x00000000#32) := by
  unfold Pipeline.afterTail₀
  show StableHlo.after hostOps1 _ (Proc.devRef .tc main_v5) = _
  after_results
  rfl

theorem v6_tail (c : Dev nD) :
    Pipeline.afterTail₀ cfgs (dats m) 0 (V0 m) [hostOps1] c main_v6 = (fun _ => Ideal.ofBits .f32 0x00000000#32) := by
  unfold Pipeline.afterTail₀
  show StableHlo.after hostOps1 _ (Proc.devRef .tc main_v6) = _
  after_results
  rfl

theorem v7_tail (c : Dev nD) :
    Pipeline.afterTail₀ cfgs (dats m) 0 (V0 m) [hostOps1] c main_v7 = (fun _ => Ideal.ofBits .f32 0x00000000#32) := by
  unfold Pipeline.afterTail₀
  show StableHlo.after hostOps1 _ (Proc.devRef .tc main_v7) = _
  after_results
  rfl

theorem v8_tail (c : Dev nD) :
    Pipeline.afterTail₀ cfgs (dats m) 0 (V0 m) [hostOps1] c main_v8 = (fun _ => Ideal.ofBits .f32 0xBF800000#32) := by
  unfold Pipeline.afterTail₀
  show StableHlo.after hostOps1 _ (Proc.devRef .tc main_v8) = _
  after_results
  rfl

/-- Cut to the true boxes, the rows are the specification's result array of the arguments. -/
theorem tail_rows (c : Dev nD) :
    tailOf (rowsOf m c) = Cert.Spec.G (m ((c : Thread nD τ).loc main_arg0)) (m ((c : Thread nD τ).loc main_arg1)) := by
  funext i
  have h0 : (i 0).val < 32 := (i 0).isLt
  have h1 : (i 1).val < 22743 := (i 1).isLt
  rw [tailOf_apply _ i (⟨(i 0).val, h0⟩ : Fin 32) (⟨(i 1).val, by omega⟩ : Fin 24576) rfl rfl]
  unfold rowsOf
  rw [rows_apply _ _ _ (⟨(i 0).val, h0⟩ : Fin 32) (⟨(i 1).val, by omega⟩ : Fin 24576) rfl rfl,
    HostPrefix.V_boxes m c _ _ _ h1, HostPrefix.V_boxes m c _ _ _ h1, HostPrefix.V_boxes m c _ _ _ h1,
    HostPrefix.V_boxes m c _ _ _ h1, V_main_arg1]
  rfl

end Tail

/-- The program's run, read: the first result is the specification's array of the arguments, the four others are
    constant, and the arguments are unchanged. -/
theorem run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v4) = Cert.Spec.G (m ((c.tc : Thread nD τ).loc main_arg0)) (m ((c.tc : Thread nD τ).loc main_arg1))
      ∧ r.2.mem ((c.tc : Thread nD τ).loc main_v5) = (fun _ => Ideal.ofBits .f32 0x00000000#32)
      ∧ r.2.mem ((c.tc : Thread nD τ).loc main_v6) = (fun _ => Ideal.ofBits .f32 0x00000000#32)
      ∧ r.2.mem ((c.tc : Thread nD τ).loc main_v7) = (fun _ => Ideal.ofBits .f32 0x00000000#32)
      ∧ r.2.mem ((c.tc : Thread nD τ).loc main_v8) = (fun _ => Ideal.ofBits .f32 0xBF800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v4 (Pipeline.mem_restRefs_of main_v4 (by decide) (by decide))).trans ((v4_tail m c).trans (tail_rows m c)),
     ((h c).2 main_v5 (Pipeline.mem_restRefs_of main_v5 (by decide) (by decide))).trans (v5_tail m c),
     ((h c).2 main_v6 (Pipeline.mem_restRefs_of main_v6 (by decide) (by decide))).trans (v6_tail m c),
     ((h c).2 main_v7 (Pipeline.mem_restRefs_of main_v7 (by decide) (by decide))).trans (v7_tail m c),
     ((h c).2 main_v8 (Pipeline.mem_restRefs_of main_v8 (by decide) (by decide))).trans (v8_tail m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main (F := Ideal) m ρ)

end Cert.KernelIdeal.Hand
end
-- ==== Proof.RefValue.lean ====
/-
  The reference program computes, for box n of batch element b, the intersection over union with each of that
  element's fifty ground-truth boxes, takes the maximum of the fifty from -∞, compares it with 1/2, reads the
  comparison bit as the number 0 or 1 and multiplies by -1. Read index by index this is the objectness target
  `Cert.Spec.G`: the corners, the clipped sides, the two areas and the union are the same formulas; the maximum of
  fifty numbers does not depend on the order in which it is taken, so it is the running maximum; max 0 x = max x 0;
  and b · (-1) is -1 where the bit b is 1 and 0 where it is 0. Every law used holds on all of the extended reals.
  The other four results are constants broadcast to their shapes.
-/
import proofs.«140048_j59227599012160_2_alg».proof.Proof.Gen.ReferenceIdeal.Read
import proofs.«140048_j59227599012160_2_alg».proof.Proof.Spec
import Idealize.ShloMosaic.PureOps.Ideal.Laws
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem
open Idealize.ShloMosaic.ValueIdx

/-! ## The laws used below -/

/-- The maximum over the first n ground-truth boxes, in any order of taking it, is the running maximum from -∞:
    the fold of max over the n overlaps is the recursion that takes them one at a time. -/
theorem fold_max_acc (x1 y1 x2 y2 a1 : EReal) (g : ℕ → ℕ → EReal) (n : ℕ) :
    (Finset.univ : Finset (Fin n)).fold max (Ideal.ofBits .f32 0xFF800000#32)
      (fun k => Cert.Spec.iou x1 y1 x2 y2 a1 (g k.val 0) (g k.val 1) (g k.val 2) (g k.val 3))
    = Cert.Spec.acc x1 y1 x2 y2 a1 g n := by
  induction n with
  | zero => rfl
  | succ n ih =>
    rw [Fin.univ_castSuccEmb, Finset.fold_cons, Finset.fold_map]
    show max (Cert.Spec.iou x1 y1 x2 y2 a1 (g n 0) (g n 1) (g n 2) (g n 3)) _ = max (Cert.Spec.acc x1 y1 x2 y2 a1 g n) _
    rw [max_comm]
    exact congrArg (fun t => max t _) ih

/-- A bit read as the number 0 or 1, times w, is w where the bit is set and 0 elsewhere: 1 · w = w and 0 · w = 0
    hold for every extended real w. -/
theorem uitofp_mul_eq_select (b : BitVec 1) (w : EReal) :
    FloatOps.mulf (F := Ideal) (φ := .f32) (FloatOps.uitofp (F := Ideal) .f32 b) w
      = Scalar.select b w (Ideal.ofBits .f32 0x00000000#32) := by
  rcases BitVec.eq_zero_or_eq_one b with h | h <;> subst h
  · show ((((0#1 : BitVec 1).toNat : ℝ)) : EReal) * w = _
    rw [select_zero, Ideal.ofBits_zero_f32]; simp
  · show ((((1#1 : BitVec 1).toNat : ℝ)) : EReal) * w = _
    rw [select_one]; simp

/-- A scalar constant broadcast to any shape has that constant at every index. -/
theorem broadcast_constant (t : Shape) (h : S_.BroadcastsInDim t (![] : Fin 0 → Fin t.rank)) (w : BitVec 32) :
    broadcastInDim t ![] h (constant (F := Ideal) S_ .f32 w) = fun _ => Ideal.ofBits .f32 w := by
  funext j
  exact broadcastInDim_apply _ h _ j ix0 (fun a => a.elim0)

/-! ## The stages of the reference read at an index

Throughout, (b, n) is box n of batch element b, m a ground-truth box of that element, and coordinate c of the trailing
axis of extent 2 is x for c = 0 and y for c = 1: the corner pairs are coordinates (0, 1) and (2, 3) of a box. -/

section Stages
variable (x0 : FVec Ideal S32x22743x4 .f32) (x1 : FVec Ideal S32x50x4 .f32)

/-- The larger of the two top-left corners, coordinate c. -/
theorem topLeft_at (b : Fin 32) (n : Fin 22743) (m : Fin 50) (c : Fin 2) :
    Read.val_main_v6 (F := Ideal) x0 x1 (ix4 b n m c)
      = max (x0 (ix3 b n ⟨c.val, by omega⟩)) (x1 (ix3 b m ⟨c.val, by omega⟩)) := by
  rw [Read.val_main_v6_apply, Read.val_main_v4_apply, Read.val_main_v1_apply, Read.val_main_v0_apply,
    Read.val_main_v5_apply, Read.val_main_v3_apply, Read.val_main_v2_apply]
  show max (x0 _) (x1 _) = _
  congr 1 <;> · refine congrArg _ (funext fun a => ?_); match a with | ⟨0,_⟩ => rfl | ⟨1,_⟩ => rfl | ⟨2,_⟩ => rfl

/-- The smaller of the two bottom-right corners, coordinate c. -/
theorem bottomRight_at (b : Fin 32) (n : Fin 22743) (m : Fin 50) (c : Fin 2) :
    Read.val_main_v13 (F := Ideal) x0 x1 (ix4 b n m c)
      = min (x0 (ix3 b n ⟨2 + c.val, by omega⟩)) (x1 (ix3 b m ⟨2 + c.val, by omega⟩)) := by
  rw [Read.val_main_v13_apply, Read.val_main_v11_apply, Read.val_main_v8_apply, Read.val_main_v7_apply,
    Read.val_main_v12_apply, Read.val_main_v10_apply, Read.val_main_v9_apply]
  show min (x0 _) (x1 _) = _
  congr 1 <;> · refine congrArg _ (funext fun a => ?_); match a with | ⟨0,_⟩ => rfl | ⟨1,_⟩ => rfl | ⟨2,_⟩ => rfl

/-- The side of the intersection along coordinate c, clipped below at zero; max 0 x = max x 0. -/
theorem clipped_at (b : Fin 32) (n : Fin 22743) (m : Fin 50) (c : Fin 2) :
    Read.val_main_v15 (F := Ideal) x0 x1 (ix4 b n m c)
      = max (min (x0 (ix3 b n ⟨2 + c.val, by omega⟩)) (x1 (ix3 b m ⟨2 + c.val, by omega⟩))
              - max (x0 (ix3 b n ⟨c.val, by omega⟩)) (x1 (ix3 b m ⟨c.val, by omega⟩)))
            (Ideal.ofBits .f32 0x00000000#32) := by
  rw [Read.val_main_v15_apply, Read.val_main_call0_v1_apply, Read.val_main_call0_v0_apply, Read.val_main_cst_apply,
    Read.val_main_v14_apply, bottomRight_at, topLeft_at]
  exact max_comm _ _

/-- The width of the intersection is the clipped side along x; the flattened position of (b, n, m) splits back
    into its three coordinates by division and remainder. -/
theorem width_at (b : Fin 32) (n : Fin 22743) (m : Fin 50) :
    Read.val_main_v17 (F := Ideal) x0 x1 (ix3 b n m) = Read.val_main_v15 (F := Ideal) x0 x1 (ix4 b n m (0 : Fin 2)) := by
  rw [Read.val_main_v17_apply, Read.val_main_v16_apply]
  refine congrArg _ (funext fun a => Fin.ext ?_)
  have hb := b.isLt; have hn := n.isLt; have hm := m.isLt
  match a with
  | ⟨0,_⟩ => show ((b.val * 22743 + n.val) * 50 + m.val) / 1137150 = b.val; omega
  | ⟨1,_⟩ => show ((b.val * 22743 + n.val) * 50 + m.val) / 50 % 22743 = n.val; omega
  | ⟨2,_⟩ => show ((b.val * 22743 + n.val) * 50 + m.val) / 1 % 50 = m.val; omega
  | ⟨3,_⟩ => rfl

/-- The height of the intersection is the clipped side along y. -/
theorem height_at (b : Fin 32) (n : Fin 22743) (m : Fin 50) :
    Read.val_main_v19 (F := Ideal) x0 x1 (ix3 b n m) = Read.val_main_v15 (F := Ideal) x0 x1 (ix4 b n m (1 : Fin 2)) := by
  rw [Read.val_main_v19_apply, Read.val_main_v18_apply]
  refine congrArg _ (funext fun a => Fin.ext ?_)
  have hb := b.isLt; have hn := n.isLt; have hm := m.isLt
  match a with
  | ⟨0,_⟩ => show ((b.val * 22743 + n.val) * 50 + m.val) / 1137150 = b.val; omega
  | ⟨1,_⟩ => show ((b.val * 22743 + n.val) * 50 + m.val) / 50 % 22743 = n.val; omega
  | ⟨2,_⟩ => show ((b.val * 22743 + n.val) * 50 + m.val) / 1 % 50 = m.val; omega
  | ⟨3,_⟩ => rfl

/-- The intersection area of box n with ground-truth box m of batch element b. -/
theorem inter_at (b : Fin 32) (n : Fin 22743) (m : Fin 50) :
    Read.val_main_v20 (F := Ideal) x0 x1 (ix3 b n m)
      = Cert.Spec.inter (x0 (ix3 b n (0 : Fin 4))) (x0 (ix3 b n (1 : Fin 4))) (x0 (ix3 b n (2 : Fin 4))) (x0 (ix3 b n (3 : Fin 4)))
          (x1 (ix3 b m (0 : Fin 4))) (x1 (ix3 b m (1 : Fin 4))) (x1 (ix3 b m (2 : Fin 4))) (x1 (ix3 b m (3 : Fin 4))) := by
  rw [Read.val_main_v20_apply, width_at, height_at, clipped_at, clipped_at]
  rfl

/-- The area of box n of batch element b. -/
theorem boxArea_at (b : Fin 32) (n : Fin 22743) :
    Read.val_main_v31 (F := Ideal) x0 (ix2 b n)
      = (x0 (ix3 b n (2 : Fin 4)) - x0 (ix3 b n (0 : Fin 4))) * (x0 (ix3 b n (3 : Fin 4)) - x0 (ix3 b n (1 : Fin 4))) := by
  rw [Read.val_main_v31_apply, Read.val_main_v25_apply, Read.val_main_v30_apply,
    Read.val_main_v22_apply, Read.val_main_v21_apply, Read.val_main_v24_apply, Read.val_main_v23_apply,
    Read.val_main_v27_apply, Read.val_main_v26_apply, Read.val_main_v29_apply, Read.val_main_v28_apply]
  show (x0 _ - x0 _) * (x0 _ - x0 _) = _
  have hb := b.isLt; have hn := n.isLt
  have e : ∀ (c : Fin 4) (k : S32x22743x4.Idx), (k 0).val = (b.val * 22743 + n.val) / 22743 →
      (k 1).val = (b.val * 22743 + n.val) / 1 % 22743 → (k 2).val = c.val → x0 k = x0 (ix3 b n c) := by
    intro c k h0 h1 h2
    refine congrArg x0 (funext fun a => Fin.ext ?_)
    match a with
    | ⟨0,_⟩ => show (k 0).val = b.val; omega
    | ⟨1,_⟩ => show (k 1).val = n.val; omega
    | ⟨2,_⟩ => exact h2
  exact congrArg₂ (· * ·) (congrArg₂ (· - ·) (e 2 _ rfl rfl rfl) (e 0 _ rfl rfl rfl))
    (congrArg₂ (· - ·) (e 3 _ rfl rfl rfl) (e 1 _ rfl rfl rfl))

/-- The area of ground-truth box m of batch element b. -/
theorem gtArea_at (b : Fin 32) (m : Fin 50) :
    Read.val_main_v42 (F := Ideal) x1 (ix2 b m)
      = (x1 (ix3 b m (2 : Fin 4)) - x1 (ix3 b m (0 : Fin 4))) * (x1 (ix3 b m (3 : Fin 4)) - x1 (ix3 b m (1 : Fin 4))) := by
  rw [Read.val_main_v42_apply, Read.val_main_v36_apply, Read.val_main_v41_apply,
    Read.val_main_v33_apply, Read.val_main_v32_apply, Read.val_main_v35_apply, Read.val_main_v34_apply,
    Read.val_main_v38_apply, Read.val_main_v37_apply, Read.val_main_v40_apply, Read.val_main_v39_apply]
  show (x1 _ - x1 _) * (x1 _ - x1 _) = _
  have hb := b.isLt; have hm := m.isLt
  have e : ∀ (c : Fin 4) (k : S32x50x4.Idx), (k 0).val = (b.val * 50 + m.val) / 50 →
      (k 1).val = (b.val * 50 + m.val) / 1 % 50 → (k 2).val = c.val → x1 k = x1 (ix3 b m c) := by
    intro c k h0 h1 h2
    refine congrArg x1 (funext fun a => Fin.ext ?_)
    match a with
    | ⟨0,_⟩ => show (k 0).val = b.val; omega
    | ⟨1,_⟩ => show (k 1).val = m.val; omega
    | ⟨2,_⟩ => exact h2
  exact congrArg₂ (· * ·) (congrArg₂ (· - ·) (e 2 _ rfl rfl rfl) (e 0 _ rfl rfl rfl))
    (congrArg₂ (· - ·) (e 3 _ rfl rfl rfl) (e 1 _ rfl rfl rfl))

/-- A box's area does not depend on the ground-truth box it is compared with. -/
theorem boxArea_bcast (b : Fin 32) (n : Fin 22743) (m : Fin 50) :
    Read.val_main_v45 (F := Ideal) x0 (ix3 b n m) = Read.val_main_v31 (F := Ideal) x0 (ix2 b n) := by
  rw [Read.val_main_v45_apply, Read.val_main_v43_apply]
  refine congrArg _ (funext fun a => ?_); match a with | ⟨0,_⟩ => rfl | ⟨1,_⟩ => rfl

/-- A ground-truth box's area does not depend on the predicted box. -/
theorem gtArea_bcast (b : Fin 32) (n : Fin 22743) (m : Fin 50) :
    Read.val_main_v46 (F := Ideal) x1 (ix3 b n m) = Read.val_main_v42 (F := Ideal) x1 (ix2 b m) := by
  rw [Read.val_main_v46_apply, Read.val_main_v44_apply]
  refine congrArg _ (funext fun a => ?_); match a with | ⟨0,_⟩ => rfl | ⟨1,_⟩ => rfl

/-- The overlap of box n with ground-truth box m of batch element b. -/
theorem iou_at (b : Fin 32) (n : Fin 22743) (m : Fin 50) :
    Read.val_main_v51 (F := Ideal) x0 x1 (ix3 b n m)
      = Cert.Spec.iou (x0 (ix3 b n (0 : Fin 4))) (x0 (ix3 b n (1 : Fin 4))) (x0 (ix3 b n (2 : Fin 4))) (x0 (ix3 b n (3 : Fin 4)))
          ((x0 (ix3 b n (2 : Fin 4)) - x0 (ix3 b n (0 : Fin 4))) * (x0 (ix3 b n (3 : Fin 4)) - x0 (ix3 b n (1 : Fin 4))))
          (x1 (ix3 b m (0 : Fin 4))) (x1 (ix3 b m (1 : Fin 4))) (x1 (ix3 b m (2 : Fin 4))) (x1 (ix3 b m (3 : Fin 4))) := by
  rw [Read.val_main_v51_apply, Read.val_main_v50_apply, Read.val_main_v48_apply, Read.val_main_v47_apply,
    Read.val_main_v49_apply, Read.val_main_cst_0_apply, boxArea_bcast, gtArea_bcast, boxArea_at, gtArea_at, inter_at]
  rfl

/-- Entry (m, c) of the ground-truth table of batch element b, inside the table. -/
theorem gtOf_at (b : Fin 32) (m : Fin 50) :
    Cert.Spec.gtOf x1 b m.val 0 = x1 (ix3 b m (0 : Fin 4)) ∧ Cert.Spec.gtOf x1 b m.val 1 = x1 (ix3 b m (1 : Fin 4))
      ∧ Cert.Spec.gtOf x1 b m.val 2 = x1 (ix3 b m (2 : Fin 4)) ∧ Cert.Spec.gtOf x1 b m.val 3 = x1 (ix3 b m (3 : Fin 4)) := by
  refine ⟨?_, ?_, ?_, ?_⟩ <;> · unfold Cert.Spec.gtOf; rw [dif_pos ⟨m.isLt, by decide⟩]; rfl

/-- The index (b, n) with coordinate k put back on the reduced axis is (b, n, k). -/
theorem lift_ix3 (h : S32x22743x50.Reduces [2] S32x22743) (b : Fin 32) (n : Fin 22743)
    (k : Fin (S32x22743x50.size 2)) : h.lift (ix2 b n) k = ix3 b n (⟨k.val, k.isLt⟩ : Fin 50) := by
  funext c; apply Fin.ext
  match c with | ⟨0,_⟩ => rfl | ⟨1,_⟩ => rfl | ⟨2,_⟩ => rfl

/-- The reduction over the fifty ground-truth boxes: the best overlap of box n of batch element b. -/
theorem best_at (b : Fin 32) (n : Fin 22743) :
    Read.val_main_v52 (F := Ideal) x0 x1 (ix2 b n)
      = Cert.Spec.best (x0 (ix3 b n (0 : Fin 4))) (x0 (ix3 b n (1 : Fin 4))) (x0 (ix3 b n (2 : Fin 4))) (x0 (ix3 b n (3 : Fin 4)))
          (Cert.Spec.gtOf x1 b) := by
  have h : S32x22743x50.Reduces [2] S32x22743 := by decide
  unfold Read.val_main_v52
  generalize hy : Read.val_main_v51 (F := Ideal) x0 x1 = y
  rw [Host.reduce_eq_fold_single (FloatOps.maximumf (F := Ideal) (φ := .f32)) y _ _ h _ (ix2 b n)]
  refine Eq.trans ?_ (fold_max_acc _ _ _ _ _ (Cert.Spec.gtOf x1 b) 50)
  have hf : (y ∘ h.lift (ix2 b n)) = fun k : Fin 50 =>
      Cert.Spec.iou (x0 (ix3 b n (0 : Fin 4))) (x0 (ix3 b n (1 : Fin 4))) (x0 (ix3 b n (2 : Fin 4))) (x0 (ix3 b n (3 : Fin 4)))
        ((x0 (ix3 b n (2 : Fin 4)) - x0 (ix3 b n (0 : Fin 4))) * (x0 (ix3 b n (3 : Fin 4)) - x0 (ix3 b n (1 : Fin 4))))
        (Cert.Spec.gtOf x1 b k.val 0) (Cert.Spec.gtOf x1 b k.val 1) (Cert.Spec.gtOf x1 b k.val 2) (Cert.Spec.gtOf x1 b k.val 3) := by
    funext k
    subst hy
    show Read.val_main_v51 (F := Ideal) x0 x1 (h.lift (ix2 b n) k) = _
    rw [lift_ix3, iou_at, (gtOf_at x1 b ⟨k.val, k.isLt⟩).1, (gtOf_at x1 b ⟨k.val, k.isLt⟩).2.1,
      (gtOf_at x1 b ⟨k.val, k.isLt⟩).2.2.1, (gtOf_at x1 b ⟨k.val, k.isLt⟩).2.2.2]
  exact congrArg (fun f => Finset.fold max (Ideal.ofBits .f32 0xFF800000#32) f (Finset.univ : Finset (Fin 50))) hf

/-- The reference's first result is the objectness target of every box. -/
theorem ref_eq : Read.val_main_v58 (F := Ideal) x0 x1 = Cert.Spec.G x0 x1 := by
  funext i
  obtain ⟨b, n, z, rfl⟩ : ∃ (b : Fin 32) (n : Fin 22743) (z : Fin 1), i = ix3 b n z := ⟨i 0, i 1, i 2, eq_ix3 i⟩
  rw [Read.val_main_v58_apply, Read.val_main_v56_apply, Read.val_main_v55_apply, Read.val_main_v53_apply,
    Read.val_main_v57_apply, Read.val_main_cst_3_apply, Read.val_main_v54_apply, Read.val_main_cst_2_apply]
  have e : Read.idx_main_v53 (ix3 b n z) = ix2 b n := by
    funext a; match a with | ⟨0,_⟩ => rfl | ⟨1,_⟩ => rfl
  rw [e, best_at, uitofp_mul_eq_select]
  rfl

end Stages

/-! ## The run -/

/-- Every execution of the reference ends with the objectness targets in its first result, the four constant
    results at their constants, and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v58) = Cert.Spec.G (m ((c.tc : Thread nD τ).loc main_arg0)) (m ((c.tc : Thread nD τ).loc main_arg1))
      ∧ r.2.mem ((c.tc : Thread nD τ).loc main_v59) = (fun _ => Ideal.ofBits .f32 0x00000000#32)
      ∧ r.2.mem ((c.tc : Thread nD τ).loc main_v60) = (fun _ => Ideal.ofBits .f32 0x00000000#32)
      ∧ r.2.mem ((c.tc : Thread nD τ).loc main_v61) = (fun _ => Ideal.ofBits .f32 0x00000000#32)
      ∧ r.2.mem ((c.tc : Thread nD τ).loc main_v62) = (fun _ => Ideal.ofBits .f32 0xBF800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c).1.trans ((Read.val_main_v58_eq m c).trans (ref_eq _ _)),
        (h c).2.1.trans (broadcast_constant _ _ _),
        (h c).2.2.1.trans (broadcast_constant _ _ _),
        (h c).2.2.2.1.trans (broadcast_constant _ _ _),
        (h c).2.2.2.2.1.trans (broadcast_constant _ _ _),
        (h c).2.2.2.2.2⟩)
    (Cert.ReferenceIdeal.Value.run (F := Ideal) m ρ)

end Cert.ReferenceIdeal.Hand

end
-- ==== Proof.lean ====
/-
  The kernel and the reference compute the same objectness targets.

  For every box n of every batch element b, both programs form the intersection over union of the box with each of
  that element's fifty ground-truth boxes, take the largest of the fifty, and answer -1 where it exceeds 1/2 and 0
  elsewhere (`Cert.Spec.G`, Proof/Spec.lean).  The kernel pads the boxes to a multiple of 2048 along the box axis,
  puts the box axis on the lanes, and on a grid of 32 points (one per batch element) walks the lanes in twelve
  chunks of 2048, folding the fifty overlaps into a running maximum that starts at -∞; the padding lanes are cut
  off again after the grid.  The reference builds the 32×22743×50 table of overlaps and reduces it along its last
  axis.  On the extended reals a maximum does not depend on the order in which it is taken, max x 0 = max 0 x, and
  a 0/1 flag times -1 is the selection between -1 and 0; nothing else distinguishes the two programs, and no law used
  needs the inputs to be finite.  The four other results are the same constants on both sides.

  The kernel's side is Proof/TripPiece.lean (one trip of the lane loop), Proof/Block.lean (one grid point's output
  row), Proof/HostPrefix.lean (the padded, transposed boxes), Proof/KernelArray.lean (the output array after the
  grid) and Proof/KernelValue.lean (the results after the cut); the reference's side is Proof/RefValue.lean.  The
  ideal pass rewrote no operation of the kernel, so there is nothing to preserve; the three frames are the generated
  frame runs and the reference's generated run.
-/
import proofs.«140048_j59227599012160_2_alg».proof.Defs
import proofs.«140048_j59227599012160_2_alg».proof.Proof.Gen.Kernel
import proofs.«140048_j59227599012160_2_alg».proof.Proof.Gen.Kernel.Skeleton
import proofs.«140048_j59227599012160_2_alg».proof.Proof.Gen.Kernel.Loops
import proofs.«140048_j59227599012160_2_alg».proof.Proof.Gen.Kernel.Launch
import proofs.«140048_j59227599012160_2_alg».proof.Proof.Gen.Kernel.Points
import proofs.«140048_j59227599012160_2_alg».proof.Proof.Gen.Kernel.Frame
import proofs.«140048_j59227599012160_2_alg».proof.Proof.Gen.KernelIdeal
import proofs.«140048_j59227599012160_2_alg».proof.Proof.Gen.KernelIdeal.Skeleton
import proofs.«140048_j59227599012160_2_alg».proof.Proof.Gen.KernelIdeal.Loops
import proofs.«140048_j59227599012160_2_alg».proof.Proof.Gen.KernelIdeal.Launch
import proofs.«140048_j59227599012160_2_alg».proof.Proof.Gen.KernelIdeal.Points
import proofs.«140048_j59227599012160_2_alg».proof.Proof.Gen.KernelIdeal.Frame
import proofs.«140048_j59227599012160_2_alg».proof.Proof.Gen.ReferenceIdeal
import proofs.«140048_j59227599012160_2_alg».proof.Proof.Gen.Pre_finite_inputs
import proofs.«140048_j59227599012160_2_alg».proof.Proof.Gen.ReferenceIdeal.Run
import proofs.«140048_j59227599012160_2_alg».proof.Proof.Gen.ReferenceIdeal.Read
import proofs.«140048_j59227599012160_2_alg».proof.Proof.Spec
import proofs.«140048_j59227599012160_2_alg».proof.Proof.KernelValue
import proofs.«140048_j59227599012160_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the results dropped. -/
theorem frame_referenceIdeal : Cert.frame_ReferenceIdeal := fun m ρ _ =>
  (θ_run Cert.ReferenceIdeal.defs _ _).mono (fun _ h c => ⟨(h c).2.2.2.2.2.1, (h c).2.2.2.2.2.2⟩)
    (Cert.ReferenceIdeal.Value.run (F := Ideal) m ρ)

/-- From memories that agree on the two arguments both programs end with the objectness targets of the same boxes
    against the same ground-truth boxes, and with the same four constant arrays. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => (fun _ => Ideal.ofBits .f32 0x00000000#32), fun _ => (fun _ => Ideal.ofBits .f32 0x00000000#32),
    fun _ => (fun _ => Ideal.ofBits .f32 0x00000000#32), fun _ => (fun _ => Ideal.ofBits .f32 0xBF800000#32),
    Cert.KernelIdeal.Hand.run m ρ, ?_⟩
  refine (θ_run Cert.ReferenceIdeal.defs _ _).mono (fun _ h c => ?_) (Cert.ReferenceIdeal.Hand.run m' ρ')
  obtain ⟨h0, h1, h2, h3, h4, h5, h6⟩ := h c
  refine ⟨h0.trans ?_, h1, h2, h3, h4, h5, h6⟩
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
